-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8192x1024 : Shape := ⟨2, ![8192, 1024]⟩
abbrev S8192 : Shape := ⟨1, ![8192]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : FVec F S8192x1024 .f32) (main_arg2 : IVec S8192 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 1024#32
  let main_v13 : IVec S8192 32 := broadcastInDim S8192 ![] bcast_S_S8192 main_c_4
  let main_v14 : IVec S8192 1 := cmpi .slt main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S16384x1024 : Shape := ⟨2, ![16384, 1024]⟩
abbrev S8192x1024 : Shape := ⟨2, ![8192, 1024]⟩
abbrev S8192 : Shape := ⟨1, ![8192]⟩
abbrev S2048x1024 : Shape := ⟨2, ![2048, 1024]⟩
abbrev S2048 : Shape := ⟨1, ![2048]⟩
abbrev S2048x1 : Shape := ⟨2, ![2048, 1]⟩
abbrev S1x1x8192 : Shape := ⟨3, ![1, 1, 8192]⟩
abbrev S1024x1024 : Shape := ⟨2, ![1024, 1024]⟩
abbrev S1024 : Shape := ⟨1, ![1024]⟩
abbrev S1024x1 : Shape := ⟨2, ![1024, 1]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192, .i32⟩
  | .hbm, ⟨3, _⟩ => ⟨S8192x1024, .bf16⟩
  | .hbm, ⟨4, _⟩ => ⟨S1x1x8192, .i32⟩
  | .hbm, ⟨5, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1x8192, .i32⟩
  | .local _ .vmem, ⟨5, _⟩ => ⟨S1024x1024, .f32⟩
  | .local _ .vmem, ⟨6, _⟩ => ⟨S1024x1024, .f32⟩
  | .local _ .vmem, ⟨7, _⟩ => ⟨S8192x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1x8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S8192_S1x1x8192 : S8192.ShapeCasts S1x1x8192
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S8192x1024_S2048x1024_0_0 : ∀ a, (![0, 0] : Fin 2 → Nat) a + S2048x1024.size a ≤ S8192x1024.size a
  shapeCasts_S2048x1024_S2048x1024 : S2048x1024.ShapeCasts S2048x1024
  inb_S1x1x8192_S1x1x2048_0_0_0 : ∀ a, (![0, 0, 0] : Fin 3 → Nat) a + S1x1x2048.size a ≤ S1x1x8192.size a
  h_S1x1x2048 : 0 < S1x1x2048.numel
  shapeCasts_S1x1x2048_S1x2048 : S1x1x2048.ShapeCasts S1x2048
  iota_S1024x2048_d0_w32 : S1024x2048.Iotas .tc 32 [0]
  broadcasts_S1x2048_S1024x2048 : S1x2048.Broadcasts S1024x2048
  natLt_1_32 : 1 < 32
  inb_S8192x1024_S2048x1024_2048_0 : ∀ a, (![2048, 0] : Fin 2 → Nat) a + S2048x1024.size a ≤ S8192x1024.size a
  inb_S1x1x8192_S1x1x2048_0_0_2048 : ∀ a, (![0, 0, 2048] : Fin 3 → Nat) a + S1x1x2048.size a ≤ S1x1x8192.size a
  shapeCasts_S1024x1024_S1024x1024 : S1024x1024.ShapeCasts S1024x1024
  inb_S8192x1024_S2048x1024_4096_0 : ∀ a, (![4096, 0] : Fin 2 → Nat) a + S2048x1024.size a ≤ S8192x1024.size a
  inb_S1x1x8192_S1x1x2048_0_0_4096 : ∀ a, (![0, 0, 4096] : Fin 3 → Nat) a + S1x1x2048.size a ≤ S1x1x8192.size a
  inb_S8192x1024_S2048x1024_6144_0 : ∀ a, (![6144, 0] : Fin 2 → Nat) a + S2048x1024.size a ≤ S8192x1024.size a
  inb_S1x1x8192_S1x1x2048_0_0_6144 : ∀ a, (![0, 0, 6144] : Fin 3 → Nat) a + S1x1x2048.size a ≤ S1x1x8192.size a
  dot_S1024x1024_S2048x1024_S1024x2048_1_1_0_0_n_n_wf : DotDims.WF S1024x1024 S2048x1024 S1024x2048 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1x8192.size a ≤ S1x1x8192.size a
  hwx1_0 : ∀ i : grid1.Coords, EltTy.bits .i32 = 32 ∨ (Rect.block (s := S1x1x8192) S1x1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x1024.size a
  hwx1_1 : ∀ i : grid1.Coords, EltTy.bits .f32 = 32 ∨ (Rect.block (s := S16384x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1024.size a ≤ S8192x1024.size a
  hwx1_2 : ∀ i : grid1.Coords, EltTy.bits .bf16 = 32 ∨ (Rect.block (s := S8192x1024) S8192x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x1x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8192x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S8192x1024 : Shape := ⟨2, ![8192, 1024]⟩
abbrev S8192 : Shape := ⟨1, ![8192]⟩
abbrev S_ : Shape := ⟨0, ![]⟩
abbrev S16384 : Shape := ⟨1, ![16384]⟩
abbrev S16384x1 : Shape := ⟨2, ![16384, 1]⟩
abbrev S8192x1 : Shape := ⟨2, ![8192, 1]⟩
abbrev S1024x8192 : Shape := ⟨2, ![1024, 8192]⟩
abbrev S16384x8192 : Shape := ⟨2, ![16384, 8192]⟩
abbrev S8192x16384 : Shape := ⟨2, ![8192, 16384]⟩
abbrev S1024x16384 : Shape := ⟨2, ![1024, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192, .i32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1024x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384x8192, .f32⟩
  | .hbm, ⟨31, _⟩ => ⟨S16384x8192, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x8192, .f32⟩
  | .hbm, ⟨45, _⟩ => ⟨S16384x8192, .f32⟩
  | .hbm, ⟨46, _⟩ => ⟨S8192x16384, .f32⟩
  | .hbm, ⟨47, _⟩ => ⟨S_, .f32⟩
  | .hbm, ⟨48, _⟩ => ⟨S1024x16384, .f32⟩
  | .hbm, ⟨49, _⟩ => ⟨S8192x1, .i32⟩
  | .hbm, ⟨50, _⟩ => ⟨S1024x16384, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  bcast_S16384x1_S16384x8192_0_1 : S16384x1.BroadcastsInDim S16384x8192 (![0, 1] : Fin 2 → Fin S16384x8192.rank)
  transposes_S16384x8192_S8192x16384_1_0 : S16384x8192.Transposes [1, 0] S8192x16384
  bcast_S_S1024x16384 : S_.BroadcastsInDim S1024x16384 (![] : Fin 0 → Fin S1024x16384.rank)
  transposes_S1024x16384_S16384x1024_1_0 : S1024x16384.Transposes [1, 0] S16384x1024
  dot_S16384x1024_S1024x8192_S16384x8192_1_0_0_1_n_n_wf : DotDims.WF S16384x1024 S1024x8192 S16384x8192 [1] [0] [0] [1] [] []
  scatter_S1024x16384_S8192x1_S8192x16384_1_0_0_1_wf : ScatterDims.WF S1024x16384 S8192x1 S8192x16384 [1] [0] [0] 1

variable [Facts₀]

def dot_S16384x1024_S1024x8192_S16384x8192_1_0_0_1_n_n : DotDims S16384x1024 S1024x8192 S16384x8192 where
  lhsContracting := [1]
  rhsContracting := [0]
  lhsNonContracting := [0]
  rhsNonContracting := [1]
  lhsBatch := []
  rhsBatch := []
  wf := dot_S16384x1024_S1024x8192_S16384x8192_1_0_0_1_n_n_wf
def scatter_S1024x16384_S8192x1_S8192x16384_1_0_0_1 : ScatterDims S1024x16384 S8192x1 S8192x16384 where
  updateWindowDims := [1]
  insertedWindowDims := [0]
  scatterDimsToOperandDims := [0]
  indexVectorDim := 1
  wf := scatter_S1024x16384_S8192x1_S8192x16384_1_0_0_1_wf

class Facts : Prop extends Facts₀ where

variable [Facts]
-- ==== Proof.RefImports.lean ====
/- The reference program's run and its read-at-an-index lemmas, gathered for the modules that state what the reference computes. -/
import proofs.«132818_g20968030339366_cont_sun_c4_238_22_alg».proof.Proof.Gen.ReferenceIdeal.Run
import proofs.«132818_g20968030339366_cont_sun_c4_238_22_alg».proof.Proof.Gen.ReferenceIdeal.Read
-- ==== Proof.KRun.lean ====
/-
  The idealized kernel program's run with its result array NAMED: every weakly fair execution of the two launches
  and the reshape between them ends with the result buffer holding what the second launch's write-backs leave
  (the boundary contents after the last segment, read at the result buffer), and the three argument arrays as
  launched.
-/
import proofs.«132818_g20968030339366_cont_sun_c4_238_22_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, with the result buffer at the last boundary's contents and the arguments unchanged. -/
theorem run_named : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.KValue

end
-- ==== Proof.KEntry.lean ====
/-
  What the second launch finds in its operands' arrays: x as launched; the unit centroid rows the first launch
  wrote; the labels reshaped to [1, 1, 8192].
-/
import proofs.«132818_g20968030339366_cont_sun_c4_238_22_alg».proof.Proof.Gen.KernelIdeal.Frame
import Idealize.ShloMosaic.PureOps.Ideal
import Idealize.ShloMosaic.Lib.Pipeline.Value
import Idealize.ShloMosaic.Lib.StableHlo.Run
import Idealize.ShloMosaic.Lib.ValueIdx

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (ρ : Dev nD → PrngReg)

/-- The reshape between the launches writes only the reshaped labels. -/
theorem W2_of_ne (c : Dev nD) (b : Ref sig .tc) (hb : (Proc.devRef .tc main_v1 : DevRef τ sig) ≠ Proc.devRef .tc b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact fun e => hb e.symm))

/-- x is as launched. -/
theorem V2_x (c : Dev nD) : V2 m ρ c main_arg0 = m ((c : Thread nD τ).loc main_arg0) :=
  (W2_of_ne m ρ c main_arg0 (StableHlo.devRef_ne_of_ne (by decide))).trans (W1_of_ne m ρ c main_arg0 (by decide))

/-- The centroid array is what the first launch's write-backs left. -/
theorem V2_cn (c : Dev nD) : V2 m ρ c main_v0 = (dat0 (V0 m ρ) c).arrAt 1 cfg0.N :=
  (W2_of_ne m ρ c main_v0 (StableHlo.devRef_ne_of_ne (by decide))).trans (W1_arr m ρ c 1)

/-- The first launch finds the centroids as launched. -/
theorem V0_c (c : Dev nD) : V0 m ρ c main_arg1 = m ((c : Thread nD τ).loc main_arg1) := rfl

/-- The labels are the launched labels reshaped. -/
theorem V2_lab (c : Dev nD) :
    V2 m ρ c main_v1 = shapeCast S1x1x8192 (m ((c : Thread nD τ).loc main_arg2)) Facts₀.shapeCasts_S8192_S1x1x8192 := by
  have e : W1 m ρ c (Proc.devRef .tc main_arg2) = m ((c : Thread nD τ).loc main_arg2) := W1_of_ne m ρ c main_arg2 (by decide)
  show StableHlo.after hostOps1 (W1 m ρ c) (Proc.devRef .tc main_v1) = _
  rw [← e]
  after_results
  rfl

/-- Label k of the reshaped array. -/
theorem V2_lab_apply (c : Dev nD) (k : Fin 8192) :
    V2 m ρ c main_v1 (ix3 (0 : Fin 1) (0 : Fin 1) k) = m ((c : Thread nD τ).loc main_arg2) (ix1 k) := by
  rw [V2_lab]
  refine shapeCast_apply _ Facts₀.shapeCasts_S8192_S1x1x8192 _ _ ?_
  rw [Shape.rowMajor_val_three, Shape.rowMajor_val_one]
  show k.val = (0 * 1 + 0) * 8192 + k.val
  omega

end Cert.KernelIdeal.KValue

end
-- ==== Proof.LibWholeBlockReadBack.lean ====
/-
  A read-back of a whole block after stores the last of which wrote the whole block.

  A kernel that accumulates into an output block stores the block, loads it back, adds to it and stores it again.
  When the most recent store covered the whole block (offset zero on every axis, the block's own extents), a load of
  the whole block reads exactly that store's value, whatever the earlier stores were.  Generic in the view, the shape
  and the element type.
-/
import Idealize.ShloMosaic.Lib.Pipeline.FrameBody
import Idealize.ShloMosaic.Lib.Pipeline.Value

noncomputable section

namespace Cert.WholeBlockReadBack

open Idealize.ShloMosaic

/-- A read-back through the whole block, after a list of stores whose LAST is a store of the whole block, is that
    store's value. -/
theorem readCov_cons_unit_zero {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.WholeBlockReadBack

end
-- ==== Proof.KBody1.lean ====
/-
  What the second launch's body leaves in its output block, as one term of the three input blocks.
  The body stores the block five times: the first chunk's class sums; three times the block read back plus the
  next chunk's class sums; last the block read back divided by its row sums.  A read-back after a store of the
  whole block is the stored value, so the five stores compose into one expression of the loads.
-/
import proofs.«132818_g20968030339366_cont_sun_c4_238_22_alg».proof.Proof.Gen.KernelIdeal.Frame
import proofs.«132818_g20968030339366_cont_sun_c4_238_22_alg».proof.Proof.LibWholeBlockReadBack
import Idealize.ShloMosaic.PureOps.Ideal
import Idealize.ShloMosaic.Lib.Pipeline.Value

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The zero offsets of a whole-block access. -/
theorem hz2 : (![0, 0] : Fin 2 → Nat) = fun _ => 0 := funext fun a => by fin_cases a <;> rfl

/-- The four chunks of centroid rows and of labels the body loads. -/
abbrev rc0 : Rect S8192x1024 := Rect.unit (s := S8192x1024) ![0, 0] S2048x1024.size Facts₀.inb_S8192x1024_S2048x1024_0_0
abbrev rc1 : Rect S8192x1024 := Rect.unit (s := S8192x1024) ![2048, 0] S2048x1024.size Facts₀.inb_S8192x1024_S2048x1024_2048_0
abbrev rc2 : Rect S8192x1024 := Rect.unit (s := S8192x1024) ![4096, 0] S2048x1024.size Facts₀.inb_S8192x1024_S2048x1024_4096_0
abbrev rc3 : Rect S8192x1024 := Rect.unit (s := S8192x1024) ![6144, 0] S2048x1024.size Facts₀.inb_S8192x1024_S2048x1024_6144_0
abbrev rl0 : Rect S1x1x8192 := Rect.unit (s := S1x1x8192) ![0, 0, 0] S1x1x2048.size Facts₀.inb_S1x1x8192_S1x1x2048_0_0_0
abbrev rl1 : Rect S1x1x8192 := Rect.unit (s := S1x1x8192) ![0, 0, 2048] S1x1x2048.size Facts₀.inb_S1x1x8192_S1x1x2048_0_0_2048
abbrev rl2 : Rect S1x1x8192 := Rect.unit (s := S1x1x8192) ![0, 0, 4096] S1x1x2048.size Facts₀.inb_S1x1x8192_S1x1x2048_0_0_4096
abbrev rl3 : Rect S1x1x8192 := Rect.unit (s := S1x1x8192) ![0, 0, 6144] S1x1x2048.size Facts₀.inb_S1x1x8192_S1x1x2048_0_0_6144

/-- The accumulated class sums after the four chunks. -/
def bodyAcc (x0 : Vec Ideal S1x1x8192 .i32) (x1 : Vec Ideal S1024x1024 .f32) (x2 : Vec Ideal S8192x1024 .bf16) : FVec Ideal S1024x1024 .f32 :=
  k1_pay1 (k1_pay9 (k1_pay3 x1) (View.ld x2 rc3)) (k1_pay10 (F := Ideal) (View.ld x0 rl3))
    (k1_pay8 (k1_pay3 x1) (View.ld x2 rc2) (View.ld x0 rl2)
      (k1_pay7 (k1_pay5 x1 (View.ld x2 rc1)) (k1_pay6 (F := Ideal) (View.ld x0 rl1))
        (k1_pay4 x1 (View.ld x2 rc0) (View.ld x0 rl0))))

/-- The block the body leaves: the accumulated class sums divided by their row sums. -/
def body1 (x0 : Vec Ideal S1x1x8192 .i32) (x1 : Vec Ideal S1024x1024 .f32) (x2 : Vec Ideal S8192x1024 .bf16) : FVec Ideal S1024x1024 .f32 :=
  k1_pay2 (bodyAcc x0 x1 x2)

set_option maxHeartbeats 1000000 in
/-- The run's five stores, read back, are that term. -/
theorem out1_eq (c : Dev nD) (i : grid1.Coords) (arg1 : Memref sig .tc .vmem S1x1x8192 .i32) (harg1 : arg1.IsWhole) (arg2 : Memref sig .tc .vmem S1024x1024 .f32) (harg2 : arg2.IsWhole) (arg3 : Memref sig .tc .vmem S8192x1024 .bf16) (harg3 : arg3.IsWhole) (arg4 : Memref sig .tc .vmem S1024x1024 .f32) (harg4 : arg4.IsWhole)
    (x0 : Vec Ideal S1x1x8192 .i32) (x1 : Vec Ideal S1024x1024 .f32) (x2 : Vec Ideal S8192x1024 .bf16) :
    out1_A_3 (F := Ideal) c i arg1 harg1 arg2 harg2 arg3 harg3 arg4 harg4 x0 x1 x2 = body1 x0 x1 x2 := by
  unfold out1_A_3
  rw [View.read_writes_eq_canon _ _ _ (cover1_A_3 c i arg1 harg1 arg2 harg2 arg3 harg3 arg4 harg4 x0 x1 x2)]
  unfold kernelRun1_A
  dsimp only
  rw [View.canon_cons_unit_zero hz2]
  sl_unfold_run_names
  simp only [Cert.WholeBlockReadBack.readCov_cons_unit_zero (S := S1024x1024) _ hz2, View.readAt_eq_ld, harg1.read_unread, harg2.read_unread, harg3.read_unread,
    View.ld_unit_zero (S := S1024x1024) hz2]
  rfl

end Cert.KernelIdeal.KValue

end
-- ==== Proof.Spec.lean ====
/-
  Soft assignment of rows to classes through labelled centroids, over the extended reals.

  Every row of `x` (N rows) and every centroid (K rows of `c`) is scaled to unit length (its length plus a small
  constant in the denominator); `sim n k` is the inner product of row n with centroid k.  Two arrangements of the
  class scores are stated here, each exactly as one of the two programs computes it:

  * `shiftedScore`: a softmax over the K centroids of the logits `-(1 - sim)/1`, shifted by the row maximum, each
    probability then summed into the class its centroid's label names;
  * `chunkedScore`: the un-shifted exponentials `exp sim` summed into classes chunk by chunk (four chunks of B
    centroids, through a 0/1 indicator of "label = class"), then divided by the sum over the classes.

  For real entries and labels inside the class range the two agree: the shift cancels in the quotient, the classes
  partition the centroids, and a sum of quotients by one denominator is the quotient of the sum.
-/
import Idealize.ShloMosaic.PureOps.Ideal

noncomputable section

namespace Cert.SoftAssign

open Idealize.ShloMosaic

/-- The four f32 words the programs carry, kept as words. -/
abbrev epsW : EReal := Ideal.ofBits .f32 0x2B8CBCCC#32
abbrev oneW : EReal := Ideal.ofBits .f32 0x3F800000#32
abbrev zeroW : EReal := Ideal.ofBits .f32 0x00000000#32
abbrev negInfW : EReal := Ideal.ofBits .f32 0xFF800000#32

/-- Extents: rows, features, centroids, classes, centroids per chunk (K = 4 * B). -/
abbrev N : ℕ := 16384
abbrev D : ℕ := 1024
abbrev K : ℕ := 8192
abbrev C : ℕ := 1024
abbrev B : ℕ := 2048

/-- A row's length plus the small constant: `sqrt (0 + Σ_j a[r,j]²) + eps`. -/
def len {R : ℕ} (a : Fin R → Fin D → EReal) (r : Fin R) : EReal :=
  Ideal.sqrt (zeroW + ∑ j : Fin D, a r j * a r j) + epsW

/-- A row scaled to unit length by a quotient: `a[r,j] / len`. -/
def unitQ {R : ℕ} (a : Fin R → Fin D → EReal) (r : Fin R) (j : Fin D) : EReal :=
  Ideal.div (a r j) (len a r)

/-- A row scaled to unit length by a product with the reciprocal: `a[r,j] * (1 / len)`. -/
def unitP {R : ℕ} (a : Fin R → Fin D → EReal) (r : Fin R) (j : Fin D) : EReal :=
  a r j * Ideal.div oneW (len a r)

/-- Inner product of unit row n with unit centroid k, both by quotients. -/
def simQ (x : Fin N → Fin D → EReal) (c : Fin K → Fin D → EReal) (n : Fin N) (k : Fin K) : EReal :=
  ∑ j : Fin D, unitQ x n j * unitQ c k j

/-- The same with the row scaled by the reciprocal. -/
def simP (x : Fin N → Fin D → EReal) (c : Fin K → Fin D → EReal) (n : Fin N) (k : Fin K) : EReal :=
  ∑ j : Fin D, unitP x n j * unitQ c k j

/-! ## The shifted softmax summed by label -/

/-- The logit `(-(1 - sim)) / 1`. -/
def logit (x : Fin N → Fin D → EReal) (c : Fin K → Fin D → EReal) (n : Fin N) (k : Fin K) : EReal :=
  Ideal.div (-(oneW - simQ x c n k)) oneW

/-- The row maximum of the logits, folded from `-∞` and once more compared with `-∞`. -/
def rowMax (x : Fin N → Fin D → EReal) (c : Fin K → Fin D → EReal) (n : Fin N) : EReal :=
  max negInfW (Finset.univ.fold max negInfW (fun k : Fin K => logit x c n k))

/-- The shifted exponential. -/
def shifted (x : Fin N → Fin D → EReal) (c : Fin K → Fin D → EReal) (n : Fin N) (k : Fin K) : EReal :=
  Ideal.exp (logit x c n k - rowMax x c n)

/-- The softmax probability of centroid k for row n. -/
def prob (x : Fin N → Fin D → EReal) (c : Fin K → Fin D → EReal) (n : Fin N) (k : Fin K) : EReal :=
  Ideal.div (shifted x c n k) (zeroW + ∑ k' : Fin K, shifted x c n k')

/-- The centroids whose label, read as a signed integer, is the class. -/
def members (lab : Fin K → BitVec 32) (cls : Fin C) : Finset (Fin K) :=
  Finset.univ.filter fun k => (lab k).toInt = (cls.val : ℤ)

/-- Class score: zero plus the probabilities of the class's centroids. -/
def shiftedScore (x : Fin N → Fin D → EReal) (c : Fin K → Fin D → EReal) (lab : Fin K → BitVec 32)
    (n : Fin N) (cls : Fin C) : EReal :=
  zeroW + ∑ k ∈ members lab cls, prob x c n k

/-! ## The un-shifted exponentials summed chunk by chunk -/

/-- Centroid `s * B + k'` of chunk s. -/
def chunkIdx (s : Fin 4) (k' : Fin B) : Fin K := ⟨s.val * B + k'.val, by have h1 : s.val < 4 := s.isLt; have h2 : k'.val < 2048 := k'.isLt; show s.val * 2048 + k'.val < 8192; omega⟩

/-- The 0/1 indicator "the label word is the class number". -/
def hot (cls : Fin C) (w : BitVec 32) : EReal := if BitVec.ofNat 32 cls.val = w then 1 else 0

/-- One chunk's contribution to a class: zero plus Σ_{k'} exp(sim) · indicator. -/
def part (x : Fin N → Fin D → EReal) (c : Fin K → Fin D → EReal) (lab : Fin K → BitVec 32)
    (n : Fin N) (cls : Fin C) (s : Fin 4) : EReal :=
  zeroW + ∑ k' : Fin B, Ideal.exp (simP x c n (chunkIdx s k')) * hot cls (lab (chunkIdx s k'))

/-- The class accumulator: the four chunks added left to right. -/
def acc (x : Fin N → Fin D → EReal) (c : Fin K → Fin D → EReal) (lab : Fin K → BitVec 32)
    (n : Fin N) (cls : Fin C) : EReal :=
  ((part x c lab n cls 0 + part x c lab n cls 1) + part x c lab n cls 2) + part x c lab n cls 3

/-- Class score: the accumulator divided by its sum over the classes. -/
def chunkedScore (x : Fin N → Fin D → EReal) (c : Fin K → Fin D → EReal) (lab : Fin K → BitVec 32)
    (n : Fin N) (cls : Fin C) : EReal :=
  Ideal.div (acc x c lab n cls) (zeroW + ∑ cls' : Fin C, acc x c lab n cls')

end Cert.SoftAssign

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KPay0.lean ====
/-
  The first launch's body at an entry: a block of centroid rows scaled to unit length.
  Entry (p, q) of what the body stores is the block's entry divided by the row's length plus the small constant,
  the length being the square root of the sum of the row's squares.
-/
import proofs.«132818_g20968030339366_cont_sun_c4_238_22_alg».proof.Proof.Gen.KernelIdeal.Skeleton
import proofs.«132818_g20968030339366_cont_sun_c4_238_22_alg».proof.Proof.Spec
import proofs.«132818_g20968030339366_cont_sun_c4_238_22_alg».proof.Proof.LibKeepdimsColumn
import proofs.«132818_g20968030339366_cont_sun_c4_238_22_alg».proof.Proof.LibSlabLayout
import Idealize.ShloMosaic.Lib.ValueIdx
import Idealize.ShloMosaic.PureOps.Ideal.Laws

noncomputable section

namespace Cert.KernelIdeal.KValue

open Idealize.ShloMosaic Idealize.ShloMosaic.ValueIdx Cert.KernelIdeal Cert.KernelIdeal.Gen Cert.SoftAssign

/-- A block row's length plus the small constant, with the sum of squares taken from nothing. -/
def rowLen {R : ℕ} (x : (⟨2, ![R, 1024]⟩ : Shape).Idx → EReal) (p : Fin R) : EReal :=
  Ideal.sqrt (∑ j : Fin 1024, x (ix2 p j) * x (ix2 p j)) + epsW

/-- Entry (p, q) of the stored block: the entry over its row's length. -/
theorem pay0_apply (x : Vec Ideal S2048x1024 .f32) (p : Fin 2048) (q : Fin 1024) :
    k0_pay1 (F := Ideal) x (ix2 p q) = Ideal.div (x (ix2 p q)) (rowLen x p) := by
  unfold k0_pay1
  dsimp only
  rw [truncf_apply, divf_apply]
  refine congrArg (Ideal.div (x (ix2 p q))) ?_
  refine (Cert.KeepdimsColumn.broadcastTo_a1_ab_apply _ Facts₀.broadcasts_S2048x1_S2048x1024 p q).trans ?_
  rw [addf_apply]
  show Ideal.sqrt (shapeCast S2048x1 _ Facts₀.shapeCasts_S2048_S2048x1 (ix2 p (0 : Fin 1))) + Ideal.ofBits .f32 0x2B8CBCCC#32 = _
  unfold rowLen
  refine congrArg (fun z => Ideal.sqrt z + epsW) ?_
  refine (Cert.KeepdimsColumn.shapeCast_a_a1_apply _ Facts₀.shapeCasts_S2048_S2048x1 p (0 : Fin 1)).trans ?_
  exact Cert.SlabLayout.rowSum_apply (mulf x x) 0x00000000#32 Facts₀.reduces_S2048x1024_S2048 (.inl rfl) rfl p

end Cert.KernelIdeal.KValue

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.KPay1.lean ====
/-
  The second launch's body, piece by piece, at an entry.

  * A block of rows of x scaled by the reciprocal of each row's length plus the small constant.
  * The exponential of the inner products of those rows with one chunk of unit centroids: entry (p, k').
  * The 0/1 words "class number = label" of one chunk of labels: entry (cls, k').
  * The class sums of a chunk: entry (p, cls) is the sum over the chunk's centroids of the exponential times the
    0/1 word read as a number; each later chunk is added to what the block held.
  * The closing division of every entry by its row's sum over the classes.
-/
import proofs.«132818_g20968030339366_cont_sun_c4_238_22_alg».proof.Proof.Gen.KernelIdeal.Skeleton
import proofs.«132818_g20968030339366_cont_sun_c4_238_22_alg».proof.Proof.KPay0
import proofs.«132818_g20968030339366_cont_sun_c4_238_22_alg».proof.Proof.LibMatmulNT
import Idealize.ShloMosaic.Lib.ValueLayout
import Idealize.ShloMosaic.Lib.Pipeline.Value

noncomputable section

namespace Cert.KernelIdeal.KValue

open Idealize.ShloMosaic Idealize.ShloMosaic.ValueIdx Cert.KernelIdeal Cert.KernelIdeal.Gen Cert.SoftAssign

/-- The two matrix products of the body contract the last axis of both operands. -/
theorem dotA_eq : dot_S1024x1024_S2048x1024_S1024x2048_1_1_0_0_n_n = DotDims.transposedRhs 1024 1024 2048 := rfl
theorem dotB_eq : dot_S1024x2048_S1024x2048_S1024x1024_1_1_0_0_n_n = DotDims.transposedRhs 1024 2048 1024 := rfl

/-- A row of x scaled by the reciprocal of its length: entry (p, j). -/
theorem pay3_apply (x : Vec Ideal S1024x1024 .f32) (p : Fin 1024) (j : Fin 1024) :
    k1_pay3 (F := Ideal) x (ix2 p j) = x (ix2 p j) * Ideal.div oneW (rowLen x p) := by
  unfold k1_pay3
  try dsimp only
  rw [truncf_apply, mulf_apply]
  refine congrArg (x (ix2 p j) * ·) ?_
  refine (Cert.KeepdimsColumn.broadcastTo_a1_ab_apply _ Facts₀.broadcasts_S1024x1_S1024x1024 p j).trans ?_
  rw [divf_apply]
  refine congrArg (Ideal.div oneW) ?_
  rw [addf_apply]
  show Ideal.sqrt (shapeCast S1024x1 _ Facts₀.shapeCasts_S1024_S1024x1 (ix2 p (0 : Fin 1))) + Ideal.ofBits .f32 0x2B8CBCCC#32 = _
  unfold rowLen
  refine congrArg (fun z => Ideal.sqrt z + epsW) ?_
  refine (Cert.KeepdimsColumn.shapeCast_a_a1_apply _ Facts₀.shapeCasts_S1024_S1024x1 p (0 : Fin 1)).trans ?_
  exact Cert.SlabLayout.rowSum_apply (mulf x x) 0x00000000#32 Facts₀.reduces_S1024x1024_S1024 (.inl rfl) rfl p

/-- The exponential of the inner products of the scaled rows with a chunk of centroids: entry (p, k'). -/
theorem expSim_apply (xh : FVec Ideal S1024x1024 .bf16) (cb : FVec Ideal S2048x1024 .bf16) (p : Fin 1024) (k' : Fin 2048) :
    (truncf .bf16 (exp (matmul dot_S1024x1024_S2048x1024_S1024x2048_1_1_0_0_n_n none xh
        (shapeCast S2048x1024 cb Facts₀.shapeCasts_S2048x1024_S2048x1024) (constant (F := Ideal) S1024x2048 .f32 0x00000000#32)))
        Facts₀.bitsLt_bf16_f32 : FVec Ideal S1024x2048 .bf16) (ix2 p k')
      = Ideal.exp (∑ j : Fin 1024, xh (ix2 p j) * cb (ix2 k' j)) := by
  rw [truncf_apply]
  show Ideal.exp _ = _
  refine congrArg Ideal.exp ?_
  rw [shapeCast_self]
  exact Cert.MatmulNT.matmul_zero_apply _ dotA_eq none xh cb p k'

/-- The 0/1 word of a class number against a label word, read as a number. -/
theorem maskWord_toInt (a w : BitVec 32) :
    ((((IntOp.cmpi .eq a w).setWidth 32).toInt : ℝ) : EReal) = if a = w then 1 else 0 := by
  by_cases h : a = w
  · subst h
    simp [IntOp.cmpi]
  · have hb : (a == w) = false := by simpa using h
    simp [IntOp.cmpi, hb, h]

/-- The 0/1 words of one chunk of labels: entry (cls, k') compares the class number with label k' of the chunk. -/
theorem mask_apply (lb : Vec Ideal S1x1x2048 .i32) (cls : Fin 1024) (k' : Fin 2048) :
    k1_pay6 (F := Ideal) lb (ix2 cls k') = (IntOp.cmpi .eq (BitVec.ofNat 32 cls.val) (lb (ix3 (0 : Fin 1) (0 : Fin 1) k'))).setWidth 32 := by
  unfold k1_pay6
  try dsimp only
  rw [extui_apply]
  refine congrArg (BitVec.setWidth 32) ?_
  show IntOp.cmpi .eq (iota .tc S1024x2048 32 [0] Facts₀.iota_S1024x2048_d0_w32 (ix2 cls k')) _ = _
  rw [iota_single_apply]
  refine congrArg (IntOp.cmpi .eq (BitVec.ofNat 32 cls.val)) ?_
  refine (broadcastTo_1b_ab_apply _ Facts₀.broadcasts_S1x2048_S1024x2048 cls k').trans ?_
  refine (shapeCast_dropUnit_apply _ lb Facts₀.shapeCasts_S1x1x2048_S1x2048 (ix2 (0 : Fin 1) k')).trans ?_
  refine congrArg lb ?_
  funext a
  match a with
  | ⟨0, _⟩ => rfl
  | ⟨1, _⟩ => rfl
  | ⟨2, _⟩ => rfl

/-- The same words, as the last chunk's payload names them. -/
theorem mask10_eq (lb : Vec Ideal S1x1x2048 .i32) : k1_pay10 (F := Ideal) lb = k1_pay6 (F := Ideal) lb := rfl

/-- The class sums of one chunk: entry (p, cls). -/
theorem classSum_apply (e : FVec Ideal S1024x2048 .bf16) (mk : IVec S1024x2048 32) (p : Fin 1024) (cls : Fin 1024) :
    matmul dot_S1024x2048_S1024x2048_S1024x1024_1_1_0_0_n_n none e
        (truncf .bf16 (sitofp .f32 mk) Facts₀.bitsLt_bf16_f32 : FVec Ideal S1024x2048 .bf16)
        (constant (F := Ideal) S1024x1024 .f32 0x00000000#32) (ix2 p cls)
      = ∑ k' : Fin 2048, e (ix2 p k') * (((mk (ix2 cls k')).toInt : ℝ) : EReal) :=
  Cert.MatmulNT.matmul_zero_apply _ dotB_eq none e _ p cls

/-- One chunk's class sums from the scaled rows, a chunk of centroids and the chunk's labels. -/
def chunkSum (xh : (⟨2, ![1024, 1024]⟩ : Shape).Idx → EReal) (cb : (⟨2, ![2048, 1024]⟩ : Shape).Idx → EReal)
    (lb : (⟨3, ![1, 1, 2048]⟩ : Shape).Idx → BitVec 32) (p : Fin 1024) (cls : Fin 1024) : EReal :=
  ∑ k' : Fin 2048, Ideal.exp (∑ j : Fin 1024, xh (ix2 p j) * cb (ix2 k' j))
    * hot cls (lb (ix3 (0 : Fin 1) (0 : Fin 1) k'))

theorem hot_eq_maskWord (cls : Fin 1024) (w : BitVec 32) :
    ((((IntOp.cmpi .eq (BitVec.ofNat 32 cls.val) w).setWidth 32).toInt : ℝ) : EReal) = hot cls w := by
  rw [maskWord_toInt]; rfl

/-- The first chunk's store: entry (p, cls). -/
theorem pay4_apply (x : Vec Ideal S1024x1024 .f32) (cb : FVec Ideal S2048x1024 .bf16) (lb : Vec Ideal S1x1x2048 .i32)
    (p : Fin 1024) (cls : Fin 1024) :
    k1_pay4 (F := Ideal) x cb lb (ix2 p cls) = chunkSum (k1_pay3 (F := Ideal) x) cb lb p cls := by
  unfold k1_pay4
  try dsimp only
  refine (classSum_apply _ (k1_pay6 (F := Ideal) lb) p cls).trans ?_
  unfold chunkSum
  refine Finset.sum_congr rfl fun k' _ => ?_
  rw [expSim_apply, mask_apply, hot_eq_maskWord]

/-- A later chunk's store from carried values: what the block held plus the chunk's class sums. -/
theorem pay7_apply (e : FVec Ideal S1024x2048 .bf16) (mk : IVec S1024x2048 32) (old : Vec Ideal S1024x1024 .f32)
    (p : Fin 1024) (cls : Fin 1024) :
    k1_pay7 (F := Ideal) e mk old (ix2 p cls)
      = old (ix2 p cls) + ∑ k' : Fin 2048, e (ix2 p k') * (((mk (ix2 cls k')).toInt : ℝ) : EReal) := by
  unfold k1_pay7
  try dsimp only
  rw [addf_apply, shapeCast_self]
  exact congrArg (old (ix2 p cls) + ·) (classSum_apply e mk p cls)

theorem pay1_apply (e : FVec Ideal S1024x2048 .bf16) (mk : IVec S1024x2048 32) (old : Vec Ideal S1024x1024 .f32)
    (p : Fin 1024) (cls : Fin 1024) :
    k1_pay1 (F := Ideal) e mk old (ix2 p cls)
      = old (ix2 p cls) + ∑ k' : Fin 2048, e (ix2 p k') * (((mk (ix2 cls k')).toInt : ℝ) : EReal) := by
  unfold k1_pay1
  try dsimp only
  rw [addf_apply, shapeCast_self]
  exact congrArg (old (ix2 p cls) + ·) (classSum_apply e mk p cls)

/-- The exponentials of a chunk, as the second and fourth chunks' payloads name them. -/
theorem pay5_apply (x : Vec Ideal S1024x1024 .f32) (cb : FVec Ideal S2048x1024 .bf16) (p : Fin 1024) (k' : Fin 2048) :
    k1_pay5 (F := Ideal) x cb (ix2 p k') = Ideal.exp (∑ j : Fin 1024, k1_pay3 (F := Ideal) x (ix2 p j) * cb (ix2 k' j)) := by
  unfold k1_pay5
  try dsimp only
  exact expSim_apply (k1_pay3 (F := Ideal) x) cb p k'

theorem pay9_apply (xh : FVec Ideal S1024x1024 .bf16) (cb : FVec Ideal S2048x1024 .bf16) (p : Fin 1024) (k' : Fin 2048) :
    k1_pay9 (F := Ideal) xh cb (ix2 p k') = Ideal.exp (∑ j : Fin 1024, xh (ix2 p j) * cb (ix2 k' j)) := by
  unfold k1_pay9
  try dsimp only
  exact expSim_apply xh cb p k'

/-- The third chunk's store: what the block held plus the chunk's class sums. -/
theorem pay8_apply (xh : FVec Ideal S1024x1024 .bf16) (cb : FVec Ideal S2048x1024 .bf16) (lb : Vec Ideal S1x1x2048 .i32)
    (old : Vec Ideal S1024x1024 .f32) (p : Fin 1024) (cls : Fin 1024) :
    k1_pay8 (F := Ideal) xh cb lb old (ix2 p cls) = old (ix2 p cls) + chunkSum xh cb lb p cls := by
  unfold k1_pay8
  try dsimp only
  rw [addf_apply, shapeCast_self]
  refine congrArg (old (ix2 p cls) + ·) ?_
  refine (classSum_apply _ (k1_pay6 (F := Ideal) lb) p cls).trans ?_
  unfold chunkSum
  refine Finset.sum_congr rfl fun k' _ => ?_
  rw [expSim_apply, mask_apply, hot_eq_maskWord]

/-- The closing division: entry (p, cls) over the row's sum across the classes. -/
theorem pay2_apply (a : Vec Ideal S1024x1024 .f32) (p : Fin 1024) (cls : Fin 1024) :
    k1_pay2 (F := Ideal) a (ix2 p cls) = Ideal.div (a (ix2 p cls)) (∑ cls' : Fin 1024, a (ix2 p cls')) := by
  unfold k1_pay2
  try dsimp only
  rw [divf_apply, shapeCast_self]
  refine congrArg (Ideal.div (a (ix2 p cls))) ?_
  refine (Cert.KeepdimsColumn.broadcastTo_a1_ab_apply _ Facts₀.broadcasts_S1024x1_S1024x1024 p cls).trans ?_
  refine (Cert.KeepdimsColumn.shapeCast_a_a1_apply _ Facts₀.shapeCasts_S1024_S1024x1 p (0 : Fin 1)).trans ?_
  exact Cert.SlabLayout.rowSum_apply a 0x00000000#32 Facts₀.reduces_S1024x1024_S1024 (.inl rfl) rfl p

end Cert.KernelIdeal.KValue

end
-- ==== Proof.KBodyAt.lean ====
/-
  The second launch's output block at an entry, in closed form: entry (p, cls) is the accumulated class sum of row p
  (four chunks of 2048 centroids, added left to right) divided by the row's sum over the 1024 classes; each chunk's
  class sum is the sum over its centroids of exp(inner product of the scaled row with the centroid) times the 0/1
  indicator "label = class".
-/
import proofs.«132818_g20968030339366_cont_sun_c4_238_22_alg».proof.Proof.KBody1
import proofs.«132818_g20968030339366_cont_sun_c4_238_22_alg».proof.Proof.KPay1

set_option maxRecDepth 16384

noncomputable section

namespace Cert.KernelIdeal.KValue

open Idealize.ShloMosaic Idealize.ShloMosaic.ValueIdx Cert.KernelIdeal Cert.KernelIdeal.Gen Cert.SoftAssign

/-- A chunk of 2048 centroid rows starting at row o, read at (k', j): the array's row o + k'. -/
theorem ld_rows (x2 : Vec Ideal S8192x1024 .bf16) (o : ℕ) (inb : ∀ a, (![o, 0] : Fin 2 → Nat) a + S2048x1024.size a ≤ S8192x1024.size a)
    (k' : Fin 2048) (j : Fin 1024) (h : o + k'.val < 8192) :
    View.ld x2 (Rect.unit (s := S8192x1024) ![o, 0] S2048x1024.size inb) (ix2 k' j) = x2 (ix2 (⟨o + k'.val, h⟩ : Fin 8192) j) := by
  show x2 ((Rect.unit (s := S8192x1024) ![o, 0] S2048x1024.size inb).emb (ix2 k' j)) = _
  refine congrArg x2 ?_
  funext a
  apply Fin.ext
  rw [Rect.emb_apply]
  match a with
  | ⟨0, _⟩ => show o + 1 * k'.val = o + k'.val; omega
  | ⟨1, _⟩ => show 0 + 1 * j.val = j.val; omega

/-- A chunk of 2048 labels starting at position o, read at (0, 0, k'): the array's label o + k'. -/
theorem ld_labels (x0 : Vec Ideal S1x1x8192 .i32) (o : ℕ) (inb : ∀ a, (![0, 0, o] : Fin 3 → Nat) a + S1x1x2048.size a ≤ S1x1x8192.size a)
    (k' : Fin 2048) (h : o + k'.val < 8192) :
    View.ld x0 (Rect.unit (s := S1x1x8192) ![0, 0, o] S1x1x2048.size inb) (ix3 (0 : Fin 1) (0 : Fin 1) k')
      = x0 (ix3 (0 : Fin 1) (0 : Fin 1) (⟨o + k'.val, h⟩ : Fin 8192)) := by
  show x0 ((Rect.unit (s := S1x1x8192) ![0, 0, o] S1x1x2048.size inb).emb (ix3 (0 : Fin 1) (0 : Fin 1) k')) = _
  refine congrArg x0 ?_
  funext a
  apply Fin.ext
  rw [Rect.emb_apply]
  match a with
  | ⟨0, _⟩ => show 0 + 1 * 0 = 0; omega
  | ⟨1, _⟩ => show 0 + 1 * 0 = 0; omega
  | ⟨2, _⟩ => show o + 1 * k'.val = o + k'.val; omega

/-- The accumulated class sums at an entry: the four chunks' class sums added left to right. -/
theorem bodyAcc_apply (x0 : Vec Ideal S1x1x8192 .i32) (x1 : Vec Ideal S1024x1024 .f32) (x2 : Vec Ideal S8192x1024 .bf16)
    (p : Fin 1024) (cls : Fin 1024) :
    bodyAcc x0 x1 x2 (ix2 p cls)
      = ((chunkSum (k1_pay3 (F := Ideal) x1) (View.ld x2 rc0) (View.ld x0 rl0) p cls
          + chunkSum (k1_pay3 (F := Ideal) x1) (View.ld x2 rc1) (View.ld x0 rl1) p cls)
          + chunkSum (k1_pay3 (F := Ideal) x1) (View.ld x2 rc2) (View.ld x0 rl2) p cls)
          + chunkSum (k1_pay3 (F := Ideal) x1) (View.ld x2 rc3) (View.ld x0 rl3) p cls := by
  unfold bodyAcc
  refine (pay1_apply _ _ _ p cls).trans ?_
  have h3 : (∑ k' : Fin 2048, k1_pay9 (F := Ideal) (k1_pay3 (F := Ideal) x1) (View.ld x2 rc3) (ix2 p k')
        * (((k1_pay10 (F := Ideal) (View.ld x0 rl3) (ix2 cls k')).toInt : ℝ) : EReal))
      = chunkSum (k1_pay3 (F := Ideal) x1) (View.ld x2 rc3) (View.ld x0 rl3) p cls := by
    unfold chunkSum
    refine Finset.sum_congr rfl fun k' _ => ?_
    rw [pay9_apply, mask10_eq, mask_apply, hot_eq_maskWord]
  rw [h3]
  refine congrArg (· + chunkSum (k1_pay3 (F := Ideal) x1) (View.ld x2 rc3) (View.ld x0 rl3) p cls) ?_
  refine (pay8_apply _ _ _ _ p cls).trans ?_
  refine congrArg (· + chunkSum (k1_pay3 (F := Ideal) x1) (View.ld x2 rc2) (View.ld x0 rl2) p cls) ?_
  refine (pay7_apply _ _ _ p cls).trans ?_
  have h1 : (∑ k' : Fin 2048, k1_pay5 (F := Ideal) x1 (View.ld x2 rc1) (ix2 p k')
        * (((k1_pay6 (F := Ideal) (View.ld x0 rl1) (ix2 cls k')).toInt : ℝ) : EReal))
      = chunkSum (k1_pay3 (F := Ideal) x1) (View.ld x2 rc1) (View.ld x0 rl1) p cls := by
    unfold chunkSum
    refine Finset.sum_congr rfl fun k' _ => ?_
    rw [pay5_apply, mask_apply, hot_eq_maskWord]
  rw [h1]
  exact congrArg (· + chunkSum (k1_pay3 (F := Ideal) x1) (View.ld x2 rc1) (View.ld x0 rl1) p cls) (pay4_apply _ _ _ p cls)

/-- The block the body leaves, at an entry. -/
theorem body1_apply (x0 : Vec Ideal S1x1x8192 .i32) (x1 : Vec Ideal S1024x1024 .f32) (x2 : Vec Ideal S8192x1024 .bf16)
    (p : Fin 1024) (cls : Fin 1024) :
    body1 x0 x1 x2 (ix2 p cls)
      = Ideal.div (bodyAcc x0 x1 x2 (ix2 p cls)) (∑ cls' : Fin 1024, bodyAcc x0 x1 x2 (ix2 p cls')) := by
  unfold body1
  exact pay2_apply _ p cls

end Cert.KernelIdeal.KValue

end
-- ==== Proof.KChunk.lean ====
/-
  The output block's entries are the chunked class scores of the specification: when the block of x holds row n of
  the array in its row p, the centroid block holds the unit centroids, and the label block holds the labels, entry
  (p, cls) of the block the body leaves is the accumulated class sum of row n divided by its sum over the classes.
-/
import proofs.«132818_g20968030339366_cont_sun_c4_238_22_alg».proof.Proof.KBodyAt
import proofs.«132818_g20968030339366_cont_sun_c4_238_22_alg».proof.Proof.Spec

set_option maxRecDepth 16384

noncomputable section

namespace Cert.KernelIdeal.KValue

open Idealize.ShloMosaic Idealize.ShloMosaic.ValueIdx Cert.KernelIdeal Cert.KernelIdeal.Gen Cert.SoftAssign

/-- The zero word added on the left changes nothing. -/
theorem zeroW_add (z : EReal) : zeroW + z = z := by
  show Ideal.ofBits .f32 0x00000000#32 + z = z
  rw [Ideal.ofBits_zero_f32, zero_add]

/-- A row's length with the sum of squares taken from nothing is the specification's, whose sum starts from the zero
    word. -/
theorem rowLen_eq_len {R : ℕ} (a : (⟨2, ![R, 1024]⟩ : Shape).Idx → EReal) (r : Fin R) :
    rowLen a r = len (fun r j => a (ix2 r j)) r := by
  unfold rowLen len
  rw [zeroW_add]

/-- One chunk's class sum is the specification's chunk sum without its leading zero word. -/
theorem chunk_eq (X : Fin N → Fin D → EReal) (Cc : Fin K → Fin D → EReal) (lab : Fin K → BitVec 32)
    (x0 : Vec Ideal S1x1x8192 .i32) (x1 : Vec Ideal S1024x1024 .f32) (x2 : Vec Ideal S8192x1024 .bf16)
    (n : Fin N) (p : Fin 1024)
    (h1 : ∀ j : Fin 1024, x1 (ix2 p j) = X n j) (hl : rowLen x1 p = len X n)
    (h2 : ∀ (k : Fin 8192) (j : Fin 1024), x2 (ix2 k j) = unitQ Cc k j)
    (h0 : ∀ k : Fin 8192, x0 (ix3 (0 : Fin 1) (0 : Fin 1) k) = lab k)
    (cls : Fin 1024) (s : Fin 4) (o : ℕ) (ho : o = s.val * 2048)
    (inbc : ∀ a, (![o, 0] : Fin 2 → Nat) a + S2048x1024.size a ≤ S8192x1024.size a)
    (inbl : ∀ a, (![0, 0, o] : Fin 3 → Nat) a + S1x1x2048.size a ≤ S1x1x8192.size a) :
    chunkSum (k1_pay3 (F := Ideal) x1) (View.ld x2 (Rect.unit (s := S8192x1024) ![o, 0] S2048x1024.size inbc))
        (View.ld x0 (Rect.unit (s := S1x1x8192) ![0, 0, o] S1x1x2048.size inbl)) p cls
      = part X Cc lab n cls s := by
  unfold chunkSum part
  rw [zeroW_add]
  refine Finset.sum_congr rfl fun k' _ => ?_
  have hs : s.val < 4 := s.isLt
  have hk : k'.val < 2048 := k'.isLt
  have hb : o + k'.val < 8192 := by omega
  have hidx : (⟨o + k'.val, hb⟩ : Fin 8192) = chunkIdx s k' := Fin.ext (by show o + k'.val = s.val * 2048 + k'.val; omega)
  rw [ld_labels x0 o inbl k' hb, h0, hidx]
  refine congrArg (fun z => Ideal.exp z * hot cls (lab (chunkIdx s k'))) ?_
  unfold simP
  refine Finset.sum_congr rfl fun j _ => ?_
  rw [ld_rows x2 o inbc k' j hb, h2, hidx, pay3_apply, h1, hl]
  rfl

/-- Entry (p, cls) of the block the body leaves is the specification's chunked class score of row n. -/
theorem block_eq_chunked (X : Fin N → Fin D → EReal) (Cc : Fin K → Fin D → EReal) (lab : Fin K → BitVec 32)
    (x0 : Vec Ideal S1x1x8192 .i32) (x1 : Vec Ideal S1024x1024 .f32) (x2 : Vec Ideal S8192x1024 .bf16)
    (n : Fin N) (p : Fin 1024)
    (h1 : ∀ j : Fin 1024, x1 (ix2 p j) = X n j)
    (h2 : ∀ (k : Fin 8192) (j : Fin 1024), x2 (ix2 k j) = unitQ Cc k j)
    (h0 : ∀ k : Fin 8192, x0 (ix3 (0 : Fin 1) (0 : Fin 1) k) = lab k)
    (cls : Fin 1024) :
    body1 x0 x1 x2 (ix2 p cls) = chunkedScore X Cc lab n cls := by
  have hl : rowLen x1 p = len X n := by
    unfold rowLen len
    rw [zeroW_add]
    refine congrArg (fun z => Ideal.sqrt z + epsW) ?_
    exact Finset.sum_congr rfl fun j _ => by rw [h1]
  have hacc : ∀ cls' : Fin 1024, bodyAcc x0 x1 x2 (ix2 p cls') = acc X Cc lab n cls' := fun cls' => by
    rw [bodyAcc_apply]
    unfold acc
    rw [chunk_eq X Cc lab x0 x1 x2 n p h1 hl h2 h0 cls' 0 0 rfl,
      chunk_eq X Cc lab x0 x1 x2 n p h1 hl h2 h0 cls' 1 2048 rfl,
      chunk_eq X Cc lab x0 x1 x2 n p h1 hl h2 h0 cls' 2 4096 rfl,
      chunk_eq X Cc lab x0 x1 x2 n p h1 hl h2 h0 cls' 3 6144 rfl]
  rw [body1_apply, hacc]
  unfold chunkedScore
  rw [zeroW_add]
  exact congrArg (Ideal.div (acc X Cc lab n cls)) (Finset.sum_congr rfl fun cls' _ => hacc cls')

end Cert.KernelIdeal.KValue

end
-- ==== Proof.KRegion0.lean ====
/-
  The first launch's result array in closed form: every centroid row divided by its length plus the small constant.

  The launch visits four points; point t stages rows t·2048 … t·2048 + 2047 of the centroid array, scales each of them to
  unit length, and writes the block back at the same rows of the result array.  A block's coordinate in the array is the
  block index times the block's extent plus the coordinate inside the block, and the two windows' block indices agree, so
  the row sums the body takes over a block row are the row sums of the array's row.  The four blocks tile all 8192 rows
  (row r lies in the block of point r / 2048), so the array ends holding the unit rows everywhere.
-/
import proofs.«132818_g20968030339366_cont_sun_c4_238_22_alg».proof.Proof.Gen.KernelIdeal.Frame
import proofs.«132818_g20968030339366_cont_sun_c4_238_22_alg».proof.Proof.KPay0
import Idealize.ShloMosaic.Lib.Pipeline.Value
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Every centroid row divided by its length plus the small constant. -/
def unitRows (a : S8192x1024.Idx → EReal) : S8192x1024.Idx → EReal :=
  fun i => Ideal.div (a i) (rowLen a (⟨(i 0).val, ValueIdx.idx2_lt0 i⟩ : Fin 8192))

theorem hz0 : (![0, 0] : Fin 2 → Nat) = fun _ => 0 := funext fun a => by fin_cases a <;> rfl

/-- The two windows move together along the rows and stay at column block 0; the row block index is at most 3. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Every one of the four row blocks is some point's. -/
theorem idx_onto0 : ∀ q0 : Fin 4, ∃ t : Fin cfg0.N, win0_1.index t = ![q0.val, 0] :=
  (by decide +kernel : ∀ q0 : Fin 4, ∃ t : Fin grid0.N, win0_1.index t = ![q0.val, 0])

/-- An index of the array is in point t's block iff each coordinate is in the block's range on its axis. -/
theorem mem_blk0 (t : Fin cfg0.N) (i : S8192x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v0).slice (win0_1.rect t)).set ↔ _
  rw [View.set_slice_whole, Rect.mem_set_unit]
  exact Iff.rfl

/-- The four blocks of 2048 rows tile the 8192 rows: row r is in the block of point r / 2048. -/
theorem cover0 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  obtain ⟨t, ht⟩ := idx_onto0 ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- What point t writes back is block t of the unit rows of the centroid array as the launch finds it. -/
theorem flushed0_eq (V : (c : Dev nD) → (b : Ref sig .tc) → Buf (Elt Ideal) ((c : Thread nD τ).loc b)) (c : Dev nD)
    (t : Fin cfg0.N) :
    (dat0 V c).flushed 1 t = ((cfg0.win 1).blk t).view.read (Elt Ideal) (unitRows (V c main_arg1)) := by
  show (cfg0.win 1).cut (grid0.coords t) ((dat0 V c).after 1 t) = _
  rw [after0_1]
  unfold out0_1
  rw [View.canon_unit_zero hz0]
  simp only [View.ld_unit_zero (S := S2048x1024) hz0]
  funext j
  obtain ⟨p, q, rfl⟩ : ∃ (p : Fin 2048) (q : Fin 1024), j = ValueIdx.ix2 p q := ⟨j 0, j 1, ValueIdx.eq_ix2 j⟩
  refine (pay0_apply (iblk0 V c 0 t) p q).trans ?_
  obtain ⟨e0, e1, e2, e3⟩ := idx_facts0 t
  have hp : p.val < 2048 := p.isLt
  -- the two windows' blocks sit at the same place in their arrays
  have hemb : ∀ y : S2048x1024.Idx, ((cfg0.win 0).blk t).view.emb y = ((cfg0.win 1).blk t).view.emb y := by
    intro y; funext a; apply Fin.ext
    match a with
    | ⟨0, _⟩ => show win0_0.index t (0 : Fin 2) * 2048 + 1 * (y 0).val = win0_1.index t (0 : Fin 2) * 2048 + 1 * (y 0).val; omega
    | ⟨1, _⟩ => show win0_0.index t (1 : Fin 2) * 1024 + 1 * (y 1).val = win0_1.index t (1 : Fin 2) * 1024 + 1 * (y 1).val; omega
  -- row p of the block is row index·2048 + p of the array, column for column
  have hrow : ∀ (r : Fin 8192), r.val = win0_1.index t (0 : Fin 2) * 2048 + p.val → ∀ jj : Fin 1024,
      ((cfg0.win 1).blk t).view.emb (ValueIdx.ix2 p jj) = ValueIdx.ix2 r jj := by
    intro r hr jj; funext a; apply Fin.ext
    match a with
    | ⟨0, _⟩ => show win0_1.index t (0 : Fin 2) * 2048 + 1 * p.val = r.val; omega
    | ⟨1, _⟩ => show win0_1.index t (1 : Fin 2) * 1024 + 1 * jj.val = jj.val; omega
  have hr0 : (((cfg0.win 1).blk t).view.emb (ValueIdx.ix2 p q) 0).val = win0_1.index t (0 : Fin 2) * 2048 + p.val := by
    show win0_1.index t (0 : Fin 2) * 2048 + 1 * p.val = _; omega
  show Ideal.div (V c main_arg1 (((cfg0.win 0).blk t).view.emb (ValueIdx.ix2 p q))) (rowLen (iblk0 V c 0 t) p)
    = Ideal.div (V c main_arg1 (((cfg0.win 1).blk t).view.emb (ValueIdx.ix2 p q)))
        (rowLen (V c main_arg1) (⟨(((cfg0.win 1).blk t).view.emb (ValueIdx.ix2 p q) 0).val, ValueIdx.idx2_lt0 _⟩ : Fin 8192))
  rw [hemb]
  refine congrArg (Ideal.div _) ?_
  unfold rowLen
  refine congrArg (fun z => Ideal.sqrt z + Cert.SoftAssign.epsW) ?_
  refine Finset.sum_congr rfl fun jj _ => ?_
  have h1 : iblk0 V c 0 t (ValueIdx.ix2 p jj)
      = V c main_arg1 (ValueIdx.ix2 (⟨(((cfg0.win 1).blk t).view.emb (ValueIdx.ix2 p q) 0).val, ValueIdx.idx2_lt0 _⟩ : Fin 8192) jj) := by
    show V c main_arg1 (((cfg0.win 0).blk t).view.emb (ValueIdx.ix2 p jj)) = _
    rw [hemb, hrow _ hr0 jj]
    rfl
  exact congrArg (fun z : EReal => z * z) h1

/-- The first launch leaves in its result array the unit rows of the centroid array as the launch finds it. -/
theorem final0 (V : (c : Dev nD) → (b : Ref sig .tc) → Buf (Elt Ideal) ((c : Thread nD τ).loc b)) (c : Dev nD) :
    (dat0 V c).arrAt 1 cfg0.N = unitRows (V c main_arg1) :=
  (dat0 V c).arrAt_eq_of_cover 1 _ (fun t _ => flushed0_eq V c t) cover0

end Cert.KernelIdeal.KValue

end
-- ==== Proof.KRegion1.lean ====
/-
  The second launch's blocks and the whole result array.

  The grid has sixteen points.  At point t the row window reads rows 1024 t … 1024 t + 1023 of the first input,
  the result window writes the same rows of the result, and the centroid and label windows read their whole arrays.
  The result's blocks tile the array (row r is in the block of point r / 1024), so when every block the body leaves
  is the matching block of one function G of the region-entry arrays, the array ends holding G.
-/
import proofs.«132818_g20968030339366_cont_sun_c4_238_22_alg».proof.Proof.KBody1
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-- The windows' block indices, decided once over the grid's sixteen points: the result window and the row window
    move with the point along the rows; the centroid and label windows stay at block 0. -/
theorem idx_facts1 : ∀ t : Fin cfg1.N, win1_3.index t (0 : Fin 2) = t.val ∧ win1_3.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_0.index t (0 : Fin 3) = 0 ∧ win1_0.index t (1 : Fin 3) = 0 ∧ win1_0.index t (2 : Fin 3) = 0 :=
  (by decide +kernel : ∀ t : Fin grid1.N, _)

/-- Entry (p, cls) of the result window's block at point t is entry (1024 t + p, cls) of the array. -/
theorem emb3 (t : Fin cfg1.N) (p : Fin 1024) (cls : Fin 1024) :
    ((cfg1.win 3).blk t).view.emb (ix2 p cls)
      = ix2 (⟨t.val * 1024 + p.val, by have := t.isLt; have hN : cfg1.N = 16 := N_1; omega⟩ : Fin 16384) cls := by
  obtain ⟨e0, e1, -⟩ := idx_facts1 t
  funext a; apply Fin.ext
  match a with
  | ⟨0, _⟩ => show win1_3.index t (0 : Fin 2) * 1024 + 1 * p.val = t.val * 1024 + p.val; omega
  | ⟨1, _⟩ => show win1_3.index t (1 : Fin 2) * 1024 + 1 * cls.val = cls.val; omega

/-- Entry (p, j) of the row window's block at point t is entry (1024 t + p, j) of the first input. -/
theorem iblk1_x (c : Dev nD) (t : Fin cfg1.N) (p : Fin 1024) (j : Fin 1024) :
    iblk1 V c 1 t (ix2 p j)
      = V c main_arg0 (ix2 (⟨t.val * 1024 + p.val, by have := t.isLt; have hN : cfg1.N = 16 := N_1; omega⟩ : Fin 16384) j) := by
  obtain ⟨-, -, e0, e1, -⟩ := idx_facts1 t
  show V c main_arg0 (((cfg1.win 1).blk t).view.emb (ix2 p j)) = _
  refine congrArg (V c main_arg0) ?_
  funext a; apply Fin.ext
  match a with
  | ⟨0, _⟩ => show win1_1.index t (0 : Fin 2) * 1024 + 1 * p.val = t.val * 1024 + p.val; omega
  | ⟨1, _⟩ => show win1_1.index t (1 : Fin 2) * 1024 + 1 * j.val = j.val; omega

/-- The centroid window's block is the whole array at every point. -/
theorem iblk1_cn (c : Dev nD) (t : Fin cfg1.N) (y : S8192x1024.Idx) : iblk1 V c 2 t y = V c main_v0 y := by
  obtain ⟨-, -, -, -, e0, e1, -⟩ := idx_facts1 t
  show V c main_v0 (((cfg1.win 2).blk t).view.emb y) = _
  refine congrArg (V c main_v0) ?_
  funext a; apply Fin.ext
  match a with
  | ⟨0, _⟩ => show win1_2.index t (0 : Fin 2) * 8192 + 1 * (y 0).val = (y 0).val; omega
  | ⟨1, _⟩ => show win1_2.index t (1 : Fin 2) * 1024 + 1 * (y 1).val = (y 1).val; omega

/-- The label window's block is the whole array at every point. -/
theorem iblk1_lab (c : Dev nD) (t : Fin cfg1.N) (y : S1x1x8192.Idx) : iblk1 V c 0 t y = V c main_v1 y := by
  obtain ⟨-, -, -, -, -, -, e0, e1, e2⟩ := idx_facts1 t
  show V c main_v1 (((cfg1.win 0).blk t).view.emb y) = _
  refine congrArg (V c main_v1) ?_
  funext a; apply Fin.ext
  match a with
  | ⟨0, _⟩ => show win1_0.index t (0 : Fin 3) * 1 + 1 * (y 0).val = (y 0).val; omega
  | ⟨1, _⟩ => show win1_0.index t (1 : Fin 3) * 1 + 1 * (y 1).val = (y 1).val; omega
  | ⟨2, _⟩ => show win1_0.index t (2 : Fin 3) * 8192 + 1 * (y 2).val = (y 2).val; omega

/-- An index of the result array is in point t's block iff each coordinate is in the block's range on its axis. -/
theorem mem_blk3 (t : Fin cfg1.N) (i : S16384x1024.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v2).slice (win1_3.rect t)).set ↔ _
  rw [View.set_slice_whole, Rect.mem_set_unit]
  exact Iff.rfl

/-- Every entry of the result array is in the block of the point its row falls in: row r in block r / 1024. -/
theorem cover3 (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 16 := N_1
  let t : Fin cfg1.N := ⟨(i 0).val / 1024, by omega⟩
  obtain ⟨e0, e1, -⟩ := idx_facts1 t
  have ht : t.val = (i 0).val / 1024 := rfl
  refine ⟨t, flush1_3 t, ?_⟩
  rw [mem_blk3]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- THE RESULT ARRAY after the sixteen write-backs: G, when at every point the body's block is G's block there. -/
theorem final1 (c : Dev nD) (G : S16384x1024.Idx → EReal)
    (hG : ∀ (t : Fin cfg1.N) (y : S1024x1024.Idx),
      body1 (iblk1 V c 0 t) (iblk1 V c 1 t) (iblk1 V c 2 t) y = G (((cfg1.win 3).blk t).view.emb y)) :
    (dat1 V c).arrAt 3 cfg1.N = G :=
  (dat1 V c).arrAt_eq_of_cover 3 G (fun t _ => by
    show (cfg1.win 3).cut (grid1.coords t) ((dat1 V c).after 3 t) = _
    rw [after1_3]
    unfold outsAt1
    rw [out1_eq]
    funext y
    exact hG t y) cover3

end Cert.KernelIdeal.KValue

end
-- ==== Proof.KValue.lean ====
/-
  The idealized kernel program's result array in closed form: entry (n, cls) is the specification's chunked class
  score of row n of x against the unit centroids and their labels.

  The second launch's blocks tile the result; block t holds rows 1024 t … 1024 t + 1023.  Its x block is those rows
  of x as launched; its centroid block is the whole array the first launch left — every centroid row divided by
  its length plus the small constant —; its label block is the launched labels reshaped.
-/
import proofs.«132818_g20968030339366_cont_sun_c4_238_22_alg».proof.Proof.KRun
import proofs.«132818_g20968030339366_cont_sun_c4_238_22_alg».proof.Proof.KEntry
import proofs.«132818_g20968030339366_cont_sun_c4_238_22_alg».proof.Proof.KChunk
import proofs.«132818_g20968030339366_cont_sun_c4_238_22_alg».proof.Proof.KRegion0
import proofs.«132818_g20968030339366_cont_sun_c4_238_22_alg».proof.Proof.KRegion1

set_option maxRecDepth 16384

noncomputable section

namespace Cert.KernelIdeal.KValue

open Idealize.ShloMosaic Idealize.ShloMosaic.TcCoe Idealize.ShloMosaic.ValueIdx
open Idealize.SL.Sem
open Cert.KernelIdeal Cert.KernelIdeal.Gen Cert.SoftAssign

variable (m : (ℓ : Loc nD τ sig) → Buf (Elt Ideal) ℓ) (ρ : Dev nD → PrngReg)

/-- The launched arrays as functions of coordinates. -/
abbrev argX (c : Dev nD) : Fin N → Fin D → EReal := fun n j => m ((c : Thread nD τ).loc main_arg0) (ix2 n j)
abbrev argC (c : Dev nD) : Fin K → Fin D → EReal := fun k j => m ((c : Thread nD τ).loc main_arg1) (ix2 k j)
abbrev argL (c : Dev nD) : Fin K → BitVec 32 := fun k => m ((c : Thread nD τ).loc main_arg2) (ix1 k)

/-- The result array the specification's chunked scores make. -/
def scores (c : Dev nD) : S16384x1024.Idx → EReal := fun i =>
  chunkedScore (argX m c) (argC m c) (argL m c) (⟨(i 0).val, idx2_lt0 i⟩ : Fin 16384) (⟨(i 1).val, idx2_lt1 i⟩ : Fin 1024)

/-- The centroid array the second launch finds: the unit centroids. -/
theorem cn_apply (c : Dev nD) (k : Fin 8192) (j : Fin 1024) :
    V2 m ρ c main_v0 (ix2 k j) = unitQ (argC m c) k j := by
  rw [V2_cn, final0 (V0 m ρ) c]
  unfold unitRows unitQ
  rw [rowLen_eq_len]

/-- The result array is the specification's chunked scores. -/
theorem result_eq (c : Dev nD) : W3 m ρ c (Proc.devRef .tc main_v2) = scores m c := by
  refine (W3_arr m ρ c 3).trans ?_
  refine final1 (V2 m ρ) c (scores m c) fun t y => ?_
  obtain ⟨p, cls, rfl⟩ : ∃ (p : Fin 1024) (cls : Fin 1024), y = ix2 p cls := ⟨y 0, y 1, eq_ix2 y⟩
  rw [emb3]
  exact block_eq_chunked (argX m c) (argC m c) (argL m c) _ _ _ _ p
    (fun j => (iblk1_x (V2 m ρ) c t p j).trans (congrFun (V2_x m ρ c) _))
    (fun k j => (iblk1_cn (V2 m ρ) c t (ix2 k j)).trans (cn_apply m ρ c k j))
    (fun k => (iblk1_lab (V2 m ρ) c t (ix3 (0 : Fin 1) (0 : Fin 1) k)).trans (V2_lab_apply m ρ c k))
    cls

/-- The run with the result array named by the specification. -/
theorem run : θ_run defs (onTc (τ := τ) (main (F := Ideal))) ⟨m, fun _ => 0, ρ⟩ (fun r => ∀ c : Dev nD,
      r.2.mem ((c.tc : Thread nD τ).loc main_v2) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.KValue

end
-- ==== Proof.RefNorm.lean ====
/-
  The reference program's two normalised arrays, read at an entry.

  Each input row is divided by its length plus a small constant: the program squares the entries, sums a row from
  the zero word, takes the square root, adds the constant, spreads the column over the row and divides.  Read at
  entry (r, j) that is the specification's quotient `unitQ` of the row.
-/
import proofs.«132818_g20968030339366_cont_sun_c4_238_22_alg».proof.Proof.RefImports
import proofs.«132818_g20968030339366_cont_sun_c4_238_22_alg».proof.Proof.Spec

noncomputable section

namespace Cert.ReferenceIdeal.RefValue

open Idealize.ShloMosaic Idealize.ShloMosaic.ValueIdx Cert.ReferenceIdeal Cert.ReferenceIdeal.Read

/-- The entry the first row sum reads at step k, from entry (n, j) of the normalised array: (n, k). -/
theorem idx_rowsum0 (n : Fin 16384) (j k : Fin 1024) :
    idx_main_call0_v1 (idx_main_call0_v2 (idx_main_v3 (ix2 n j))) k = ix2 n k :=
  funext fun a => Fin.ext (by match a with | ⟨0, _⟩ => rfl | ⟨1, _⟩ => rfl)

/-- The entry the second row sum reads at step q, from entry (k, j) of the normalised array: (k, q). -/
theorem idx_rowsum1 (k : Fin 8192) (j q : Fin 1024) :
    idx_main_call1_v1 (idx_main_call1_v2 (idx_main_v8 (ix2 k j))) q = ix2 k q :=
  funext fun a => Fin.ext (by match a with | ⟨0, _⟩ => rfl | ⟨1, _⟩ => rfl)

/-- The first input's normalised array at (n, j) is the quotient of the entry by its row's length. -/
theorem v4_apply (x0 : (⟨S16384x1024, .f32⟩ : BufTy).Contents (Elt Ideal)) (n : Fin 16384) (j : Fin 1024) :
    val_main_v4 (F := Ideal) x0 (ix2 n j) = Cert.SoftAssign.unitQ (fun n j => x0 (ix2 n j)) n j := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.hostUnary_sqrt_def, Ideal.addf_def, Ideal.mulf_def,
    Ideal.ofBits_def, idx_rowsum0]
  unfold Cert.SoftAssign.unitQ Cert.SoftAssign.len
  rfl

/-- The second input's normalised array at (k, j) is the quotient of the entry by its row's length. -/
theorem v9_apply (x1 : (⟨S8192x1024, .f32⟩ : BufTy).Contents (Elt Ideal)) (k : Fin 8192) (j : Fin 1024) :
    val_main_v9 (F := Ideal) x1 (ix2 k j) = Cert.SoftAssign.unitQ (fun k j => x1 (ix2 k j)) k j := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.hostDivf_def, Ideal.hostUnary_sqrt_def, Ideal.addf_def, Ideal.mulf_def,
    Ideal.ofBits_def, idx_rowsum1]
  unfold Cert.SoftAssign.unitQ Cert.SoftAssign.len
  rfl

end Cert.ReferenceIdeal.RefValue

end
-- ==== Proof.RefLogits.lean ====
/-
  The reference program's logits and their row maximum, read at an entry.

  The inner products of the normalised rows (a contraction over the feature axis of the first array with the
  transposed second one), the logit `(-(1 - s)) / 1`, the maximum of a row of logits folded from the `-∞` word, and
  that maximum compared once more with the `-∞` word.
-/
import proofs.«132818_g20968030339366_cont_sun_c4_238_22_alg».proof.Proof.RefNorm

noncomputable section

namespace Cert.ReferenceIdeal.RefValue

open Idealize.ShloMosaic Idealize.ShloMosaic.ValueIdx Cert.ReferenceIdeal Cert.ReferenceIdeal.Read

/-- The left operand's entry the contraction reads at step j, from result entry (n, k): (n, j). -/
theorem lidx_sim (n : Fin 16384) (k : Fin 8192) (j : Fin 1024) : lidx_main_v11 (ix2 n k) j = ix2 n j :=
  funext fun a => Fin.ext (by match a with | ⟨0, _⟩ => rfl | ⟨1, _⟩ => rfl)

/-- The right operand's entry the contraction reads at step j, from result entry (n, k), before the transposition:
    (k, j). -/
theorem ridx_sim (n : Fin 16384) (k : Fin 8192) (j : Fin 1024) :
    idx_main_v10 (ridx_main_v11 (ix2 n k) j) = ix2 k j :=
  funext fun a => Fin.ext (by match a with | ⟨0, _⟩ => rfl | ⟨1, _⟩ => rfl)

/-- The contraction at (n, k) is the inner product of normalised row n with normalised row k. -/
theorem v11_apply (x0 : (⟨S16384x1024, .f32⟩ : BufTy).Contents (Elt Ideal))
    (x1 : (⟨S8192x1024, .f32⟩ : BufTy).Contents (Elt Ideal)) (n : Fin 16384) (k : Fin 8192) :
    val_main_v11 (F := Ideal) x0 x1 (ix2 n k)
      = Cert.SoftAssign.simQ (fun n j => x0 (ix2 n j)) (fun k j => x1 (ix2 k j)) n k := by
  rw [val_main_v11_apply]
  unfold Cert.SoftAssign.simQ
  refine Finset.sum_congr rfl fun j _ => ?_
  rw [val_main_v10_apply, lidx_sim, ridx_sim, v4_apply, v9_apply]

/-- The logit at (n, k). -/
theorem v16_apply (x0 : (⟨S16384x1024, .f32⟩ : BufTy).Contents (Elt Ideal))
    (x1 : (⟨S8192x1024, .f32⟩ : BufTy).Contents (Elt Ideal)) (n : Fin 16384) (k : Fin 8192) :
    val_main_v16 (F := Ideal) x0 x1 (ix2 n k)
      = Cert.SoftAssign.logit (fun n j => x0 (ix2 n j)) (fun k j => x1 (ix2 k j)) n k := by
  rw [val_main_v16_apply, val_main_v14_apply, val_main_v13_apply, val_main_v12_apply, val_main_cst_1_apply,
    val_main_v15_apply, val_main_cst_2_apply, v11_apply]
  simp only [Ideal.hostDivf_def, Ideal.hostNegf_def, Ideal.negf_def, Ideal.subf_def, Ideal.ofBits_def]
  rfl

/-- A row index with the coordinate k put back on the second axis is (n, k). -/
theorem lift_row {m p : Nat} (h : (⟨2, ![m, p]⟩ : Shape).Reduces [1] (⟨1, ![m]⟩ : Shape)) (n : Fin m)
    (k : Fin ((⟨2, ![m, p]⟩ : Shape).size 1)) : h.lift (ix1 n) k = ix2 n (⟨k.val, k.isLt⟩ : Fin p) := by
  funext c; apply Fin.ext
  match c with
  | ⟨0, _⟩ => rfl
  | ⟨1, _⟩ => rfl

/-- The maximum over a row of logits, folded from the `-∞` word. -/
theorem v17_apply (x0 : (⟨S16384x1024, .f32⟩ : BufTy).Contents (Elt Ideal))
    (x1 : (⟨S8192x1024, .f32⟩ : BufTy).Contents (Elt Ideal)) (n : Fin 16384) :
    val_main_v17 (F := Ideal) x0 x1 (ix1 n)
      = Finset.univ.fold max Cert.SoftAssign.negInfW
          (fun k : Fin 8192 => Cert.SoftAssign.logit (fun n j => x0 (ix2 n j)) (fun k j => x1 (ix2 k j)) n k) := by
  have h : S16384x8192.Reduces [1] S16384 := by decide
  unfold val_main_v17
  rw [Host.reduce_eq_fold_single FloatOps.maximumf _ _ Facts₀.reducesTo_S16384x8192_S16384_d1 h Facts₀.h_S_]
  have hf : (val_main_v16 (F := Ideal) x0 x1 ∘ h.lift (ix1 n))
      = fun k : Fin 8192 => Cert.SoftAssign.logit (fun n j => x0 (ix2 n j)) (fun k j => x1 (ix2 k j)) n k :=
    funext fun k => by
      show val_main_v16 (F := Ideal) x0 x1 (h.lift (ix1 n) k) = _
      rw [lift_row h n k]
      exact v16_apply x0 x1 n k
  exact congrArg (fun f => Finset.fold max Cert.SoftAssign.negInfW f (Finset.univ : Finset (Fin 8192))) hf

/-- The row maximum compared once more with the `-∞` word. -/
theorem v19_apply (x0 : (⟨S16384x1024, .f32⟩ : BufTy).Contents (Elt Ideal))
    (x1 : (⟨S8192x1024, .f32⟩ : BufTy).Contents (Elt Ideal)) (n : Fin 16384) :
    val_main_v19 (F := Ideal) x0 x1 (ix1 n)
      = Cert.SoftAssign.rowMax (fun n j => x0 (ix2 n j)) (fun k j => x1 (ix2 k j)) n := by
  rw [val_main_v19_apply, val_main_v18_apply, val_main_cst_4_apply, v17_apply]
  simp only [Ideal.maximumf_def, Ideal.ofBits_def]
  rfl

end Cert.ReferenceIdeal.RefValue

end
-- ==== Proof.RefSoftmax.lean ====
/-
  The reference program's softmax over the centroids, read at an entry.

  The shifted exponential `exp (logit - row maximum)`, its sum over a row from the zero word, and the quotient.
-/
import proofs.«132818_g20968030339366_cont_sun_c4_238_22_alg».proof.Proof.RefLogits

noncomputable section

namespace Cert.ReferenceIdeal.RefValue

open Idealize.ShloMosaic Idealize.ShloMosaic.ValueIdx Cert.ReferenceIdeal Cert.ReferenceIdeal.Read

/-- The row maximum's entry that entry (n, k) of its spread over the row reads: n. -/
theorem idx_rowmax (n : Fin 16384) (k : Fin 8192) : idx_main_v20 (idx_main_v21 (ix2 n k)) = ix1 n :=
  funext fun a => Fin.ext (by match a with | ⟨0, _⟩ => rfl)

/-- The row sum's entry that entry (n, k) of its spread over the row reads: n. -/
theorem idx_rowsum (n : Fin 16384) (k : Fin 8192) : idx_main_v25 (idx_main_v26 (ix2 n k)) = ix1 n :=
  funext fun a => Fin.ext (by match a with | ⟨0, _⟩ => rfl)

/-- The entry the row sum of exponentials reads at step k, from row n: (n, k). -/
theorem idx_expsum (n : Fin 16384) (k : Fin 8192) : idx_main_v24 (ix1 n) k = ix2 n k :=
  funext fun a => Fin.ext (by match a with | ⟨0, _⟩ => rfl | ⟨1, _⟩ => rfl)

/-- The shifted exponential at (n, k). -/
theorem v23_apply (x0 : (⟨S16384x1024, .f32⟩ : BufTy).Contents (Elt Ideal))
    (x1 : (⟨S8192x1024, .f32⟩ : BufTy).Contents (Elt Ideal)) (n : Fin 16384) (k : Fin 8192) :
    val_main_v23 (F := Ideal) x0 x1 (ix2 n k)
      = Cert.SoftAssign.shifted (fun n j => x0 (ix2 n j)) (fun k j => x1 (ix2 k j)) n k := by
  rw [val_main_v23_apply, val_main_v22_apply, val_main_v21_apply, val_main_v20_apply, idx_rowmax, v19_apply,
    v16_apply]
  simp only [Ideal.hostUnary_exp_def, Ideal.subf_def]
  rfl

/-- The sum of a row of shifted exponentials, from the zero word. -/
theorem v24_apply (x0 : (⟨S16384x1024, .f32⟩ : BufTy).Contents (Elt Ideal))
    (x1 : (⟨S8192x1024, .f32⟩ : BufTy).Contents (Elt Ideal)) (n : Fin 16384) :
    val_main_v24 (F := Ideal) x0 x1 (ix1 n)
      = Cert.SoftAssign.zeroW
        + ∑ k : Fin 8192, Cert.SoftAssign.shifted (fun n j => x0 (ix2 n j)) (fun k j => x1 (ix2 k j)) n k := by
  rw [val_main_v24_apply, val_main_cst_5_apply]
  simp only [Ideal.ofBits_def]
  refine congrArg (_ + ·) (Finset.sum_congr rfl fun k _ => ?_)
  rw [idx_expsum, v23_apply]

/-- The softmax probability at (n, k). -/
theorem v27_apply (x0 : (⟨S16384x1024, .f32⟩ : BufTy).Contents (Elt Ideal))
    (x1 : (⟨S8192x1024, .f32⟩ : BufTy).Contents (Elt Ideal)) (n : Fin 16384) (k : Fin 8192) :
    val_main_v27 (F := Ideal) x0 x1 (ix2 n k)
      = Cert.SoftAssign.prob (fun n j => x0 (ix2 n j)) (fun k j => x1 (ix2 k j)) n k := by
  rw [val_main_v27_apply, val_main_v26_apply, val_main_v25_apply, idx_rowsum, v24_apply, v23_apply]
  simp only [Ideal.hostDivf_def]
  rfl

end Cert.ReferenceIdeal.RefValue

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.RefValue.lean ====
/-
  The reference program's result, read at an entry.

  The probabilities are transposed to centroid-major order and each centroid's row is added, by a scatter with an
  addition body, into the row of the class its label names, starting from an array of zero words; the result is
  transposed back.  Read at (n, cls): the zero word plus the probabilities, for row n, of the centroids whose label,
  read as a signed integer, is cls.
-/
import proofs.«132818_g20968030339366_cont_sun_c4_238_22_alg».proof.Proof.RefSoftmax
import proofs.«132818_g20968030339366_cont_sun_c4_238_22_alg».proof.Proof.LibScatterRows

noncomputable section

namespace Cert.ReferenceIdeal.RefValue

open Idealize.ShloMosaic Idealize.ShloMosaic.ValueIdx Cert.ReferenceIdeal Cert.ReferenceIdeal.Read

/-- The class-major entry that result entry (n, cls) reads: (cls, n). -/
theorem idx_out (n : Fin 16384) (cls : Fin 1024) : idx_main_v32 (ix2 n cls) = ix2 cls n :=
  funext fun a => Fin.ext (by match a with | ⟨0, _⟩ => rfl | ⟨1, _⟩ => rfl)

/-- The probability entry that centroid-major entry (k, n) reads: (n, k). -/
theorem idx_probT (k : Fin 8192) (n : Fin 16384) : idx_main_v28 (ix2 k n) = ix2 n k :=
  funext fun a => Fin.ext (by match a with | ⟨0, _⟩ => rfl | ⟨1, _⟩ => rfl)

/-- The label that entry (k, 0) of the label column reads: k. -/
theorem idx_label (k : Fin 8192) : idx_main_v30 (ix2 k (0 : Fin 1)) = ix1 k :=
  funext fun a => Fin.ext (by match a with | ⟨0, _⟩ => rfl)

/-- The centroids whose row lands on class row cls are those whose label, read as a signed integer, is cls. -/
theorem landing_eq_members (x2 : (⟨S8192, .i32⟩ : BufTy).Contents (Elt Ideal)) (cls : Fin 1024) :
    Cert.ScatterRows.landing (val_main_v30 (F := Ideal) x2 : IVec ⟨2, ![8192, 1]⟩ 32) cls.val
      = Cert.SoftAssign.members (fun k => x2 (ix1 k)) cls := by
  unfold Cert.ScatterRows.landing Cert.SoftAssign.members
  refine Finset.filter_congr fun k _ => ?_
  rw [val_main_v30_apply, idx_label]

open Idealize.ShloMosaic Idealize.ShloMosaic.ValueIdx Cert.ReferenceIdeal in
/-- THE REFERENCE PROGRAM'S RESULT AT (n, cls) is the specification's class score of the shifted softmax. -/
theorem result_eq
    (x0 : (⟨S16384x1024, .f32⟩ : BufTy).Contents (Elt Ideal)) (x1 : (⟨S8192x1024, .f32⟩ : BufTy).Contents (Elt Ideal))
    (x2 : (⟨S8192, .i32⟩ : BufTy).Contents (Elt Ideal)) (n : Fin 16384) (cls : Fin 1024) :
    Cert.ReferenceIdeal.Read.val_main_v32 (F := Ideal) x0 x1 x2 (ix2 n cls)
      = Cert.SoftAssign.shiftedScore (fun n j => x0 (ix2 n j)) (fun k j => x1 (ix2 k j)) (fun k => x2 (ix1 k)) n cls := by
  rw [val_main_v32_apply, idx_out]
  unfold val_main_v31
  refine (Cert.ScatterRows.scatterAdd_rows_apply scatter_S1024x16384_S8192x1_S8192x16384_1_0_0_1 rfl rfl rfl rfl
    (val_main_v29 (F := Ideal)) (val_main_v30 (F := Ideal) x2) (val_main_v28 (F := Ideal) x0 x1) cls n).trans ?_
  rw [landing_eq_members, val_main_v29_apply, val_main_cst_6_apply]
  unfold Cert.SoftAssign.shiftedScore
  simp only [Ideal.ofBits_def]
  refine congrArg (_ + ·) (Finset.sum_congr rfl fun k _ => ?_)
  rw [val_main_v28_apply, idx_probT, v27_apply]

end Cert.ReferenceIdeal.RefValue

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibRealBounds.lean ====
/-
  Real numbers inside the extended reals: facts a quantisation kernel's algebra needs.

  An extended real that is neither infinity is a real number, so anything squeezed between two real numbers is one; the
  maximum of two real numbers is one; a value clamped into [lo, hi] with real ends is one whatever was clamped; a running
  maximum from the bottom element over a non-empty family of real numbers is one. And for real numbers a sum of products
  times a product of two factors distributes: (Σ aₖ·cₖ)·(S·T) = Σ (aₖ·S)·(cₖ·T) — the step that moves two scales out of (or
  into) a contraction, false at the infinities.
-/
import proofs.«132818_g20968030339366_cont_sun_c4_238_22_alg».proof.Proof.LibRealEntries

noncomputable section

namespace Cert.RealBounds

open Cert.RealEntries

/-- Neither infinity: a real number. -/
theorem isR_of_ne {z : EReal} (h1 : z ≠ ⊥) (h2 : z ≠ ⊤) : IsR z := by
  induction z using EReal.rec with
  | bot => exact absurd rfl h1
  | coe r => exact ⟨r, rfl⟩
  | top => exact absurd rfl h2

theorem isR_ne_bot {z : EReal} (h : IsR z) : z ≠ ⊥ := by obtain ⟨r, rfl⟩ := h; exact EReal.coe_ne_bot r
theorem isR_ne_top {z : EReal} (h : IsR z) : z ≠ ⊤ := by obtain ⟨r, rfl⟩ := h; exact EReal.coe_ne_top r

/-- Between two real numbers: a real number. -/
theorem isR_of_between {lo hi z : EReal} (hlo : IsR lo) (hhi : IsR hi) (h1 : lo ≤ z) (h2 : z ≤ hi) : IsR z :=
  isR_of_ne (fun e => isR_ne_bot hlo (le_bot_iff.mp (e ▸ h1))) (fun e => isR_ne_top hhi (top_le_iff.mp (e ▸ h2)))

theorem isR_max {x y : EReal} (hx : IsR x) (hy : IsR y) : IsR (max x y) := by
  rcases le_total x y with h | h
  · rw [max_eq_right h]; exact hy
  · rw [max_eq_left h]; exact hx

/-- A clamp with real ends is a real number, whatever is clamped (an infinity too). -/
theorem isR_clamp {lo hi : EReal} (hlo : IsR lo) (hhi : IsR hi) (y : EReal) : IsR (min hi (max lo y)) := by
  rcases le_total hi (max lo y) with h | h
  · rw [min_eq_left h]; exact hhi
  · rw [min_eq_right h]; exact isR_of_between hlo hhi (le_max_left _ _) h

/-- A running maximum from the bottom element over a non-empty family of real numbers is a real number. -/
theorem isR_foldMax {n : ℕ} (hn : 0 < n) (g : Fin n → EReal) (hg : ∀ k, IsR (g k)) :
    IsR ((Finset.univ : Finset (Fin n)).fold max ⊥ g) := by
  have hlo : g ⟨0, hn⟩ ≤ (Finset.univ : Finset (Fin n)).fold max ⊥ g :=
    (Finset.le_fold_max _).mpr (Or.inr ⟨_, Finset.mem_univ _, le_rfl⟩)
  refine isR_of_ne (fun e => isR_ne_bot (hg ⟨0, hn⟩) (le_bot_iff.mp (e ▸ hlo))) (ne_of_lt ?_)
  exact (Finset.fold_max_lt _).mpr ⟨bot_lt_top, fun k _ => lt_top_iff_ne_top.mpr (isR_ne_top (hg k))⟩

/-- Distributivity over real numbers: a sum of products times a product of two factors. -/
theorem sum_mul_scales {n : ℕ} (a c : Fin n → EReal) (S T : EReal) (ha : ∀ k, IsR (a k)) (hc : ∀ k, IsR (c k))
    (hS : IsR S) (hT : IsR T) : (∑ k, a k * c k) * (S * T) = ∑ k, (a k * S) * (c k * T) := by
  obtain ⟨S', rfl⟩ := hS
  obtain ⟨T', rfl⟩ := hT
  choose a' ha' using ha
  choose c' hc' using hc
  obtain rfl : a = fun k => ((a' k : ℝ) : EReal) := funext ha'
  obtain rfl : c = fun k => ((c' k : ℝ) : EReal) := funext hc'
  simp only [← EReal.coe_mul, ← coe_sum]
  congr 1
  rw [Finset.sum_mul]
  exact Finset.sum_congr rfl fun k _ => by ring

end Cert.RealBounds

end
-- ==== Proof.AlgebraReals.lean ====
/-
  The four float words as extended reals, and the unit rows and their inner products as real numbers.

  The word of 0.0 is 0, the word of 1.0 is the real 1, the word of -∞ is ⊥, and the small constant is a positive real.
  For a row of real numbers the sum of squares is a non-negative real, its square root is a non-negative real, so the
  length plus the small constant is a POSITIVE real d.  Dividing by d and multiplying by 1/d are then the same real
  operation, so the two ways of scaling a row agree, entry by entry, on a real number; an inner product of two such rows
  is a finite sum of products of reals, a real number, the same for both arrangements.
-/
import proofs.«132818_g20968030339366_cont_sun_c4_238_22_alg».proof.Proof.Spec
import proofs.«132818_g20968030339366_cont_sun_c4_238_22_alg».proof.Proof.LibRealEntries
import proofs.«132818_g20968030339366_cont_sun_c4_238_22_alg».proof.Proof.LibRealBounds

noncomputable section

namespace Cert.SoftAssign

open Idealize.ShloMosaic Cert.RealEntries

/-! ## The words -/

theorem zeroW_eq : zeroW = 0 := Ideal.ofBits_zero_f32

theorem oneW_eq : oneW = ((1 : ℝ) : EReal) := by
  simp [Ideal.ofBits, Ideal.ieee, -EReal.coe_mul]; norm_num

theorem negInfW_eq : negInfW = ⊥ := by
  simp [Ideal.ofBits, Ideal.ieee]

/-- The small constant is a positive real (9223372 · 2⁻⁶³). -/
theorem epsW_pos : ∃ e : ℝ, 0 < e ∧ epsW = (e : EReal) := by
  refine ⟨(9223372 : ℝ) * (2 : ℝ) ^ (-63 : ℤ), by positivity, ?_⟩
  simp [Ideal.ofBits, Ideal.ieee, -EReal.coe_mul]

/-! ## Lengths and unit rows -/

/-- The length-plus-constant of a row of real numbers is a positive real. -/
theorem len_pos {R : ℕ} (a : Fin R → Fin D → EReal) (r : Fin R) (ha : ∀ j, IsR (a r j)) :
    ∃ d : ℝ, 0 < d ∧ len a r = (d : EReal) := by
  choose a' ha' using ha
  obtain ⟨e, he, hE⟩ := epsW_pos
  refine ⟨Real.sqrt (∑ j, a' j * a' j) + e, by positivity, ?_⟩
  unfold len
  rw [zeroW_eq, zero_add, hE]
  simp only [ha', ← EReal.coe_mul, ← coe_sum]
  rw [Ideal.sqrt_coe, if_neg (not_lt.mpr (Finset.sum_nonneg fun j _ => mul_self_nonneg _)), ← EReal.coe_add]

/-- An entry divided by the positive real length. -/
theorem unitQ_eq {R : ℕ} (a : Fin R → Fin D → EReal) (r : Fin R) (j : Fin D) {d v : ℝ} (hd : 0 < d)
    (hl : len a r = (d : EReal)) (hv : a r j = (v : EReal)) : unitQ a r j = ((v / d : ℝ) : EReal) := by
  unfold unitQ
  rw [hl, hv, Ideal.div_coe hd.ne', ← EReal.coe_mul]
  congr 1; ring

/-- An entry times the reciprocal of the positive real length: the same real number. -/
theorem unitP_eq {R : ℕ} (a : Fin R → Fin D → EReal) (r : Fin R) (j : Fin D) {d v : ℝ} (hd : 0 < d)
    (hl : len a r = (d : EReal)) (hv : a r j = (v : EReal)) : unitP a r j = ((v / d : ℝ) : EReal) := by
  unfold unitP
  rw [hl, hv, oneW_eq, Ideal.div_coe hd.ne', ← EReal.coe_mul, ← EReal.coe_mul]
  congr 1; ring

/-! ## Inner products -/

/-- For real rows and real centroids both inner products of row n with centroid k are one real number s k. -/
theorem sim_real (x : Fin N → Fin D → EReal) (c : Fin K → Fin D → EReal)
    (hx : ∀ n j, IsR (x n j)) (hc : ∀ k j, IsR (c k j)) (n : Fin N) :
    ∃ s : Fin K → ℝ, ∀ k, simQ x c n k = (s k : EReal) ∧ simP x c n k = (s k : EReal) := by
  obtain ⟨dx, hdx, hlx⟩ := len_pos x n (hx n)
  choose dc hdc hlc using fun k => len_pos c k (hc k)
  choose x' hx' using hx n
  choose c' hc' using hc
  refine ⟨fun k => ∑ j, (x' j / dx) * (c' k j / dc k), fun k => ⟨?_, ?_⟩⟩
  · unfold simQ
    rw [coe_sum]
    exact Finset.sum_congr rfl fun j _ => by
      rw [unitQ_eq x n j hdx hlx (hx' j), unitQ_eq c k j (hdc k) (hlc k) (hc' k j), EReal.coe_mul]
  · unfold simP
    rw [coe_sum]
    exact Finset.sum_congr rfl fun j _ => by
      rw [unitP_eq x n j hdx hlx (hx' j), unitQ_eq c k j (hdc k) (hlc k) (hc' k j), EReal.coe_mul]

end Cert.SoftAssign

end
-- ==== Proof.AlgebraSoftmax.lean ====
/-
  The shifted softmax over the extended reals, for real scores.

  With real scores s the logits (-(1 - s))/1 are the reals s - 1; their running maximum from -∞ over a non-empty index
  set is a real M; the shifted exponentials exp(s - 1 - M) = exp(s)·exp(-1 - M) are positive reals with a positive real
  sum; in the quotient the common positive factor exp(-1 - M) cancels, leaving exp(s k) / Σ_j exp(s j).
-/
import proofs.«132818_g20968030339366_cont_sun_c4_238_22_alg».proof.Proof.AlgebraReals

noncomputable section

namespace Cert.SoftAssign

open Idealize.ShloMosaic Cert.RealEntries Cert.RealBounds

theorem softmax_shift {m : ℕ} (hm : 0 < m) (l : Fin m → EReal) (s : Fin m → ℝ)
    (hl : ∀ k, l k = Ideal.div (-(oneW - (s k : EReal))) oneW) (k : Fin m) :
    Ideal.div (Ideal.exp (l k - max negInfW (Finset.univ.fold max negInfW l)))
      (zeroW + ∑ k' : Fin m, Ideal.exp (l k' - max negInfW (Finset.univ.fold max negInfW l)))
    = ((Real.exp (s k) / ∑ j : Fin m, Real.exp (s j) : ℝ) : EReal) := by
  have hl' : ∀ k, l k = ((s k - 1 : ℝ) : EReal) := fun k => by
    rw [hl, oneW_eq, Ideal.div_coe one_ne_zero, ← EReal.coe_sub, ← EReal.coe_neg, ← EReal.coe_mul]
    congr 1; ring
  obtain ⟨M, hM⟩ : IsR (max negInfW (Finset.univ.fold max negInfW l)) := by
    rw [negInfW_eq, max_eq_right bot_le]
    exact isR_foldMax hm l fun k => ⟨_, hl' k⟩
  have hne : (Finset.univ : Finset (Fin m)).Nonempty := ⟨⟨0, hm⟩, Finset.mem_univ _⟩
  have hS : 0 < ∑ j : Fin m, Real.exp (s j) := Finset.sum_pos (fun j _ => Real.exp_pos _) hne
  have hS' : 0 < ∑ j : Fin m, Real.exp (s j - 1 - M) := Finset.sum_pos (fun j _ => Real.exp_pos _) hne
  have hE : ∀ j, Real.exp (s j - 1 - M) = Real.exp (s j) * Real.exp (-1 - M) := fun j => by
    rw [← Real.exp_add]; congr 1; ring
  rw [hM, zeroW_eq, zero_add]
  simp only [hl', ← EReal.coe_sub, Ideal.exp_coe, ← coe_sum]
  rw [Ideal.div_coe hS'.ne', ← EReal.coe_mul]
  congr 1
  simp only [hE, ← Finset.sum_mul]
  have hpos := Real.exp_pos (-1 - M)
  field_simp

end Cert.SoftAssign

end
-- ==== Proof.AlgebraChunks.lean ====
/-
  The sums over chunks and over classes, in the real numbers.

  The four chunks of B consecutive centroids cover every centroid exactly once (k = (k / B)·B + k % B), so a sum over all
  centroids is the four chunk sums added up.  A label word in the class range equals the word of a class number exactly
  when the label, read as a signed integer, is that class; so the 0/1 indicator picks out the members of the class, and
  the chunk sums of indicator-weighted terms add up to the sum over the members.  Every label in the class range names
  exactly one class, so the member sums over all classes add up to the sum over all centroids.
-/
import proofs.«132818_g20968030339366_cont_sun_c4_238_22_alg».proof.Proof.Spec

noncomputable section

namespace Cert.SoftAssign

/-! ## The chunks partition the centroids -/

theorem chunkIdx_bijective : Function.Bijective (fun p : Fin 4 × Fin B => chunkIdx p.1 p.2) := by
  constructor
  · rintro ⟨s, k⟩ ⟨s', k'⟩ h
    have h' : s.val * 2048 + k.val = s'.val * 2048 + k'.val := congrArg Fin.val h
    have h1 : k.val < 2048 := k.isLt
    have h2 : k'.val < 2048 := k'.isLt
    have hs : s.val = s'.val := by omega
    have hk : k.val = k'.val := by omega
    exact Prod.ext (Fin.ext hs) (Fin.ext hk)
  · intro k
    have hk : k.val < 8192 := k.isLt
    refine ⟨(⟨k.val / 2048, by omega⟩, ⟨k.val % 2048, by show _ < 2048; omega⟩), Fin.ext ?_⟩
    show k.val / 2048 * 2048 + k.val % 2048 = k.val
    omega

/-- The four chunk sums, added left to right, are the sum over all centroids. -/
theorem sum_chunks (f : Fin K → ℝ) :
    ((∑ k' : Fin B, f (chunkIdx 0 k') + ∑ k' : Fin B, f (chunkIdx 1 k')) + ∑ k' : Fin B, f (chunkIdx 2 k'))
      + ∑ k' : Fin B, f (chunkIdx 3 k') = ∑ k : Fin K, f k := by
  rw [← chunkIdx_bijective.sum_comp f, Fintype.sum_prod_type, Fin.sum_univ_four]

/-! ## The indicator and the members of a class -/

/-- For a label in the class range, "the label word is the word of the class number" says the label is the class. -/
theorem ofNat_eq_iff (cls : Fin C) (w : BitVec 32) (hw : 0 ≤ w.toInt ∧ w.toInt < 1024) :
    BitVec.ofNat 32 cls.val = w ↔ w.toInt = (cls.val : ℤ) := by
  have hc : cls.val < 1024 := cls.isLt
  have hlt : w.toNat < 2 ^ 32 := w.isLt
  obtain ⟨h0, h1⟩ := hw
  rw [← BitVec.toNat_inj, BitVec.toNat_ofNat]
  rw [BitVec.toInt_eq_toNat_cond] at h0 h1 ⊢
  split_ifs at h0 h1 ⊢ <;> omega

/-- The indicator as a real 0/1 number. -/
theorem hot_eq (cls : Fin C) (w : BitVec 32) (hw : 0 ≤ w.toInt ∧ w.toInt < 1024) :
    hot cls w = (((if w.toInt = (cls.val : ℤ) then 1 else 0 : ℝ)) : EReal) := by
  unfold hot
  by_cases h : w.toInt = (cls.val : ℤ)
  · rw [if_pos ((ofNat_eq_iff cls w hw).mpr h), if_pos h, EReal.coe_one]
  · rw [if_neg (mt (ofNat_eq_iff cls w hw).mp h), if_neg h, EReal.coe_zero]

/-- The chunk sums of indicator-weighted terms add up to the sum over the members of the class. -/
theorem sum_chunks_members (lab : Fin K → BitVec 32) (cls : Fin C) (E : Fin K → ℝ) :
    ((∑ k' : Fin B, E (chunkIdx 0 k') * (if (lab (chunkIdx 0 k')).toInt = (cls.val : ℤ) then 1 else 0)
        + ∑ k' : Fin B, E (chunkIdx 1 k') * (if (lab (chunkIdx 1 k')).toInt = (cls.val : ℤ) then 1 else 0))
        + ∑ k' : Fin B, E (chunkIdx 2 k') * (if (lab (chunkIdx 2 k')).toInt = (cls.val : ℤ) then 1 else 0))
      + ∑ k' : Fin B, E (chunkIdx 3 k') * (if (lab (chunkIdx 3 k')).toInt = (cls.val : ℤ) then 1 else 0)
      = ∑ k ∈ members lab cls, E k := by
  rw [sum_chunks fun k => E k * (if (lab k).toInt = (cls.val : ℤ) then 1 else 0)]
  unfold members
  rw [Finset.sum_filter]
  exact Finset.sum_congr rfl fun k _ => by rw [mul_ite, mul_one, mul_zero]

/-- Every label in the class range names exactly one class: the member sums over all classes add up to the sum over
    all centroids. -/
theorem sum_members (lab : Fin K → BitVec 32) (hlab : ∀ k, 0 ≤ (lab k).toInt ∧ (lab k).toInt < 1024)
    (f : Fin K → ℝ) : ∑ cls : Fin C, ∑ k ∈ members lab cls, f k = ∑ k : Fin K, f k := by
  let g : Fin K → Fin C := fun k => ⟨(lab k).toInt.toNat, by have := hlab k; show _ < 1024; omega⟩
  have hg : ∀ (cls : Fin C) (k : Fin K), (lab k).toInt = (cls.val : ℤ) ↔ g k = cls := fun cls k => by
    have := hlab k
    constructor
    · intro h
      apply Fin.ext
      show (lab k).toInt.toNat = cls.val
      omega
    · intro h
      have h' : (lab k).toInt.toNat = cls.val := congrArg Fin.val h
      omega
  have hm : ∀ cls : Fin C, members lab cls = Finset.univ.filter fun k => g k = cls := fun cls => by
    unfold members
    exact Finset.filter_congr fun k _ => hg cls k
  simp only [hm]
  exact Finset.sum_fiberwise Finset.univ g f

end Cert.SoftAssign

end
-- ==== Proof.Algebra.lean ====
/-
  The two arrangements of the class scores agree for real entries and labels in the class range.

  Both inner products are one real s k.  The shifted-softmax probability of centroid k is exp(s k) / S with
  S = Σ_j exp(s j) a positive real (the shift cancels in the quotient).  Each chunk's contribution is the real sum of
  exp(s k) over the chunk's members of the class; the four chunks partition the centroids, so the class accumulator is
  A = Σ_{k ∈ members} exp(s k); the classes partition the centroids, so Σ_classes A = S.  Hence the chunked score is
  A / S = Σ_{k ∈ members} exp(s k) / S, the shifted score.
-/
import proofs.«132818_g20968030339366_cont_sun_c4_238_22_alg».proof.Proof.AlgebraReals
import proofs.«132818_g20968030339366_cont_sun_c4_238_22_alg».proof.Proof.AlgebraSoftmax
import proofs.«132818_g20968030339366_cont_sun_c4_238_22_alg».proof.Proof.AlgebraChunks

noncomputable section

namespace Cert.SoftAssign

open Idealize.ShloMosaic Cert.RealEntries

theorem chunked_eq_shifted
    (x : Fin N → Fin D → EReal) (c : Fin K → Fin D → EReal) (lab : Fin K → BitVec 32)
    (hx : ∀ n j, ∃ r : ℝ, x n j = (r : EReal)) (hc : ∀ k j, ∃ r : ℝ, c k j = (r : EReal))
    (hlab : ∀ k, 0 ≤ (lab k).toInt ∧ (lab k).toInt < 1024)
    (n : Fin N) (cls : Fin C) :
    chunkedScore x c lab n cls = shiftedScore x c lab n cls := by
  obtain ⟨s, hs⟩ := sim_real x c hx hc n
  have hK : 0 < K := by decide
  have hS : 0 < ∑ j : Fin K, Real.exp (s j) :=
    Finset.sum_pos (fun j _ => Real.exp_pos _) ⟨⟨0, hK⟩, Finset.mem_univ _⟩
  -- the softmax probability
  have hprob : ∀ k, prob x c n k = ((Real.exp (s k) / ∑ j : Fin K, Real.exp (s j) : ℝ) : EReal) := fun k => by
    unfold prob shifted rowMax
    exact softmax_shift hK (fun k => logit x c n k) s (fun k => by unfold logit; rw [(hs k).1]) k
  -- one chunk's contribution
  have hpart : ∀ (cls' : Fin C) (t : Fin 4), part x c lab n cls' t
      = ((∑ k' : Fin B, Real.exp (s (chunkIdx t k'))
            * (if (lab (chunkIdx t k')).toInt = (cls'.val : ℤ) then 1 else 0) : ℝ) : EReal) := fun cls' t => by
    unfold part
    rw [zeroW_eq, zero_add, coe_sum]
    exact Finset.sum_congr rfl fun k' _ => by
      rw [(hs _).2, Ideal.exp_coe, hot_eq cls' _ (hlab _), EReal.coe_mul]
  -- the class accumulator
  have hacc : ∀ cls' : Fin C, acc x c lab n cls' = ((∑ k ∈ members lab cls', Real.exp (s k) : ℝ) : EReal) :=
    fun cls' => by
      unfold acc
      rw [hpart, hpart, hpart, hpart, ← EReal.coe_add, ← EReal.coe_add, ← EReal.coe_add,
        sum_chunks_members lab cls' fun k => Real.exp (s k)]
  unfold chunkedScore shiftedScore
  rw [zeroW_eq, zero_add, zero_add]
  simp only [hacc, hprob, ← coe_sum]
  rw [sum_members lab hlab fun k => Real.exp (s k), Ideal.div_coe hS.ne', ← EReal.coe_mul, ← Finset.sum_div,
    mul_one_div]

end Cert.SoftAssign

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«132818_g20968030339366_cont_sun_c4_238_22_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.PreFacts.lean ====
/-
  What the precondition says of the three inputs.

  The precondition is the conjunction of four "all" tests: every entry of each float array has an absolute value below
  +∞, and every label, compared as a signed integer, is at least 0 and below 1024.  Each test is a reduction by "and"
  from the constant true, so each being true gives the compared fact at every entry: the float entries are real
  numbers and the labels lie in [0, 1024).
-/
import proofs.«132818_g20968030339366_cont_sun_c4_238_22_alg».proof.Pre_finite_inputs
import proofs.«132818_g20968030339366_cont_sun_c4_238_22_alg».proof.Proof.LibFiniteInputs
import proofs.«132818_g20968030339366_cont_sun_c4_238_22_alg».proof.Proof.LibHostBroadcasts
import Idealize.ShloMosaic.Lib.ReduceAll

noncomputable section

namespace Cert.PreFacts

open Idealize.ShloMosaic

/-- The scalar shape has one index. -/
instance subsingleton_scalar_idx : Subsingleton Cert.Pre_finite_inputs.S_.Idx := ⟨fun a b => funext fun d => d.elim0⟩

/-- The word 0 read as a signed integer. -/
theorem toInt_zero32 : (0#32 : BitVec 32).toInt = 0 := by decide

/-- The word 1024 read as a signed integer. -/
theorem toInt_1024 : (1024#32 : BitVec 32).toInt = 1024 := by decide

/-- The precondition holds: both float arrays have real entries and every label is in [0, 1024). -/
theorem of_pre [Cert.Pre_finite_inputs.Facts]
    (x0 : Idealize.ShloMosaic.FVec Idealize.ShloMosaic.Ideal Cert.Pre_finite_inputs.S16384x1024 .f32)
    (x1 : Idealize.ShloMosaic.FVec Idealize.ShloMosaic.Ideal Cert.Pre_finite_inputs.S8192x1024 .f32)
    (x2 : Idealize.ShloMosaic.IVec Cert.Pre_finite_inputs.S8192 32)
    (h : Cert.Pre_finite_inputs.fn (F := Idealize.ShloMosaic.Ideal) x0 x1 x2 = fun _ => 1#1) :
    (∀ i, ∃ r : ℝ, x0 i = (r : EReal)) ∧ (∀ i, ∃ r : ℝ, x1 i = (r : EReal)) ∧ (∀ i, 0 ≤ (x2 i).toInt ∧ (x2 i).toInt < 1024) := by
  have h0 := congrFun h ValueIdx.ix0
  dsimp only [Cert.Pre_finite_inputs.fn, Cert.Pre_finite_inputs.fn_part1] at h0
  simp only [Idealize.ShloMosaic.andi] at h0
  obtain ⟨h12, h15⟩ := IntOp.andi_eq_one.1 h0
  obtain ⟨h8, h11⟩ := IntOp.andi_eq_one.1 h12
  obtain ⟨h3, h7⟩ := IntOp.andi_eq_one.1 h8
  refine ⟨Cert.RealEntries.allReal_of_all_finite x0 _ _ _ _ _ h3,
    Cert.RealEntries.allReal_of_all_finite x1 _ _ _ _ _ h7, fun i => ⟨?_, ?_⟩⟩
  · have e := IntOp.cmpi_sge.1 (Host.reduce_andi_all _ _ _ _ _ h11 i)
    rw [Cert.HostBroadcasts.scalar_apply] at e
    have e' : (0#32 : BitVec 32).toInt ≤ (x2 i).toInt := e
    rw [toInt_zero32] at e'
    exact e'
  · have e := IntOp.cmpi_slt.1 (Host.reduce_andi_all _ _ _ _ _ h15 i)
    rw [Cert.HostBroadcasts.scalar_apply] at e
    have e' : (x2 i).toInt < (1024#32 : BitVec 32).toInt := e
    rw [toInt_1024] at e'
    exact e'

end Cert.PreFacts

end
-- ==== Proof.lean ====
/-
  The certificate's five claims for the soft k-means class scores.

  Both programs normalise the rows of x and of the centroids to unit length, take their inner products, and turn
  the exponentials into class scores through the centroids' labels.  The reference shifts the logits sim - 1 by
  their row maximum, normalises over the centroids and then sums each class's probabilities; the kernel sums the
  un-shifted exponentials into the classes chunk by chunk and divides by the sum over the classes.  Over the
  extended reals the two agree for real inputs and labels inside the class range (the added precondition): the
  shift cancels in the quotient, the classes partition the centroids, and a sum of quotients by one denominator is
  the quotient of the sum.

  The frames of the two kernel programs are the generated frame certificates; the reference's frame is its generated
  run with the result dropped; the idealization rewrote nothing, so "preserves" is trivial.
-/
import proofs.«132818_g20968030339366_cont_sun_c4_238_22_alg».proof.Defs
import proofs.«132818_g20968030339366_cont_sun_c4_238_22_alg».proof.Proof.Gen.Kernel.Frame
import proofs.«132818_g20968030339366_cont_sun_c4_238_22_alg».proof.Proof.Gen.KernelIdeal.Frame
import proofs.«132818_g20968030339366_cont_sun_c4_238_22_alg».proof.Proof.Gen.Pre_finite_inputs
import proofs.«132818_g20968030339366_cont_sun_c4_238_22_alg».proof.Proof.RefImports
import proofs.«132818_g20968030339366_cont_sun_c4_238_22_alg».proof.Proof.KValue
import proofs.«132818_g20968030339366_cont_sun_c4_238_22_alg».proof.Proof.RefValue
import proofs.«132818_g20968030339366_cont_sun_c4_238_22_alg».proof.Proof.Algebra
import proofs.«132818_g20968030339366_cont_sun_c4_238_22_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array is the chunked class scores of the launched arrays, the reference's the shifted
    softmax summed by label; under the precondition the entries are real and the labels in range, where the two
    scores are equal. -/
theorem algebraic : Cert.algebraic_KernelIdeal_ReferenceIdeal := by
  intro m ρ m' ρ' hpre hagree
  refine ⟨fun c => Cert.KernelIdeal.KValue.scores m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2]
  obtain ⟨hx, hc, hl⟩ := Cert.PreFacts.of_pre _ _ _ (hpre c)
  funext i
  obtain ⟨n, cls, rfl⟩ : ∃ (n : Fin 16384) (cls : Fin 1024), i = ix2 n cls := ⟨i 0, i 1, eq_ix2 i⟩
  rw [Cert.ReferenceIdeal.RefValue.result_eq]
  exact (Cert.SoftAssign.chunked_eq_shifted _ _ _ (fun n j => hx _) (fun k j => hc _) (fun k => hl _) n cls).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
